-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x20x512x512 : Shape := ⟨4, ![16, 20, 512, 512]⟩
abbrev S16x1x512x512 : Shape := ⟨4, ![16, 1, 512, 512]⟩
abbrev S_ : Shape := ⟨0, ![]⟩

class Facts : Prop where
  bcast_S_S16x20x512x512 : S_.BroadcastsInDim S16x20x512x512 (![] : Fin 0 → Fin S16x20x512x512.rank)
  reducesTo_S16x20x512x512_S_d0_1_2_3 : S16x20x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn_part1 {F : FTy → Type} [FloatOps F] (main_v13 : IVec S_ 1) (main_v16 : IVec S16x1x512x512 1) : IVec S_ 1 :=
  let main_c_5 : IVec S_ 1 := constantI S_ 1 1#1
  let main_v17 : IVec S_ 1 := (fun x v => Host.reduce IntOp.andi x v reducesTo_S16x1x512x512_S_d0_1_2_3 h_S_) main_v16 main_c_5
  let main_v18 : IVec S_ 1 := andi main_v13 main_v17
  main_v18

def fn {F : FTy → Type} [FloatOps F] (main_arg0 : FVec F S16x20x512x512 .f32) (main_arg1 : FVec F S16x1x512x512 .f32) (main_arg2 : FVec F S16x1x512x512 .f32) (main_arg3 : FVec F S16x1x512x512 .f32) : IVec S_ 1 :=
  let main_v0 : FVec F S16x20x512x512 .f32 := Host.absf main_arg0
  let main_cst : FVec F S_ .f32 := constant S_ .f32 0x7F800000#32
  let main_v1 : FVec F S16x20x512x512 .f32 := broadcastInDim S16x20x512x512 ![] bcast_S_S16x20x512x512 main_cst
  let main_v2 : IVec S16x20x512x512 1 := cmpf .olt main_v0 main_v1
  let main_c : IVec S_ 1 := constantI S_ 1 1#1
  let main_v3 : IVec S_ 1 := (fun x v => Host.reduce IntOp.andi x v reducesTo_S16x20x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  let main_v14 : FVec F S16x1x512x512 .f32 := Host.absf main_arg3
  let main_cst_4 : FVec F S_ .f32 := constant S_ .f32 0x7F800000#32
  let main_v15 : FVec F S16x1x512x512 .f32 := broadcastInDim S16x1x512x512 ![] bcast_S_S16x1x512x512 main_cst_4
  let main_v16 : IVec S16x1x512x512 1 := cmpf .olt main_v14 main_v15
  fn_part1 (F := F) main_v13 main_v16
-- ==== Kernel.lean ====
abbrev S16x20x512x512 : Shape := ⟨4, ![16, 20, 512, 512]⟩
abbrev S16x1x512x512 : Shape := ⟨4, ![16, 1, 512, 512]⟩
abbrev S1x2x512x512 : Shape := ⟨4, ![1, 2, 512, 512]⟩
abbrev S1x1x512x512 : Shape := ⟨4, ![1, 1, 512, 512]⟩

abbrev nBuf : Space → Nat
  | .hbm => 5
  | .vmem => 10
  | .smem => 0
  | _ => 0

abbrev bufTy : (tb : Table) → Fin (tcTables nBuf tb) → BufTy
  | .hbm, ⟨0, _⟩ => ⟨S16x20x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x20x512x512, .f32⟩
  | .local _ .vmem, ⟨0, _⟩ => ⟨S1x2x512x512, .f32⟩
  | .local _ .vmem, ⟨1, _⟩ => ⟨S1x2x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | _, _ => ⟨S16x20x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 10], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x2x512x512_S1x2x512x512_0_0_0_0 : ∀ a, (![0, 0, 0, 0] : Fin 4 → Nat) a + S1x2x512x512.size a ≤ S1x2x512x512.size a
  h_S1x2x512x512 : 0 < S1x2x512x512.numel
  slices_S1x2x512x512_o0_0_0_0_S1x1x512x512 : S1x2x512x512.Slices ![0, 0, 0, 0] S1x1x512x512
  slices_S1x2x512x512_o0_1_0_0_S1x1x512x512 : S1x2x512x512.Slices ![0, 1, 0, 0] S1x1x512x512
  rotates_S1x2x512x512_d2 : S1x2x512x512.Rotates 2 none
  rotates_S1x1x512x512_d3 : S1x1x512x512.Rotates 3 none
  natLt_1_32 : 1 < 32
  rotates_S1x1x512x512_d2 : S1x1x512x512.Rotates 2 none
  broadcasts_S1x1x512x512_S1x2x512x512 : S1x1x512x512.Broadcasts S1x2x512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x1x512x512 : S1x1x512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512x512.size a ≤ S16x20x512x512.size a
  hwx0_0 : ∀ i : grid0.Coords, EltTy.bits .f32 = 32 ∨ (Rect.block (s := S16x20x512x512) S1x2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S16x20x512x512.size a
  hwx0_1 : ∀ i : grid0.Coords, EltTy.bits .f32 = 32 ∨ (Rect.block (s := S16x20x512x512) S1x2x512x512.size (cc0_transform_1 i) (hinb0_1 i)).WholeWords (EltTy.packing .f32)

variable [Facts₀]

abbrev win0_0 : Pipeline.Window sig grid0 :=
  Pipeline.Window.ofSpec (Memref.whole main_arg0) S1x2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x20x512x512 : Shape := ⟨4, ![16, 20, 512, 512]⟩
abbrev S16x1x512x512 : Shape := ⟨4, ![16, 1, 512, 512]⟩
abbrev S_ : Shape := ⟨0, ![]⟩
abbrev S16x1x512x1 : Shape := ⟨4, ![16, 1, 512, 1]⟩
abbrev S16x1x512x511 : Shape := ⟨4, ![16, 1, 512, 511]⟩
abbrev S16x1x1x512 : Shape := ⟨4, ![16, 1, 1, 512]⟩
abbrev S16x1x511x512 : Shape := ⟨4, ![16, 1, 511, 512]⟩
abbrev S16x20x1x512 : Shape := ⟨4, ![16, 20, 1, 512]⟩
abbrev S16x20x511x512 : Shape := ⟨4, ![16, 20, 511, 512]⟩

abbrev nBuf : Space → Nat
  | .hbm => 114
  | .vmem => 0
  | .smem => 0
  | _ => 0

abbrev bufTy : (tb : Table) → Fin (tcTables nBuf tb) → BufTy
  | .hbm, ⟨0, _⟩ => ⟨S16x20x512x512, .f32⟩
  | .hbm, ⟨1, _⟩ => ⟨S16x1x512x512, .f32⟩
  | .hbm, ⟨2, _⟩ => ⟨S16x1x512x512, .f32⟩
  | .hbm, ⟨3, _⟩ => ⟨S16x1x512x512, .f32⟩
  | .hbm, ⟨4, _⟩ => ⟨S16x1x512x512, .f32⟩
  | .hbm, ⟨5, _⟩ => ⟨S16x1x512x512, .f32⟩
  | .hbm, ⟨6, _⟩ => ⟨S_, .f32⟩
  | .hbm, ⟨7, _⟩ => ⟨S16x1x512x512, .f32⟩
  | .hbm, ⟨8, _⟩ => ⟨S16x1x512x512, .i1⟩
  | .hbm, ⟨9, _⟩ => ⟨S16x1x512x1, .f32⟩
  | .hbm, ⟨10, _⟩ => ⟨S16x1x512x511, .f32⟩
  | .hbm, ⟨11, _⟩ => ⟨S16x1x512x512, .f32⟩
  | .hbm, ⟨12, _⟩ => ⟨S16x1x1x512, .f32⟩
  | .hbm, ⟨13, _⟩ => ⟨S16x1x511x512, .f32⟩
  | .hbm, ⟨14, _⟩ => ⟨S16x1x512x512, .f32⟩
  | .hbm, ⟨15, _⟩ => ⟨S16x1x512x1, .f32⟩
  | .hbm, ⟨16, _⟩ => ⟨S16x1x512x511, .f32⟩
  | .hbm, ⟨17, _⟩ => ⟨S16x1x512x512, .f32⟩
  | .hbm, ⟨18, _⟩ => ⟨S16x1x512x512, .f32⟩
  | .hbm, ⟨19, _⟩ => ⟨S_, .f32⟩
  | .hbm, ⟨20, _⟩ => ⟨S16x1x512x512, .f32⟩
  | .hbm, ⟨21, _⟩ => ⟨S16x1x512x512, .i1⟩
  | .hbm, ⟨22, _⟩ => ⟨S16x1x512x512, .i1⟩
  | .hbm, ⟨23, _⟩ => ⟨S16x1x512x512, .f32⟩
  | .hbm, ⟨24, _⟩ => ⟨S_, .f32⟩
  | .hbm, ⟨25, _⟩ => ⟨S16x1x512x512, .f32⟩
  | .hbm, ⟨26, _⟩ => ⟨S16x1x512x512, .i1⟩
  | .hbm, ⟨27, _⟩ => ⟨S16x1x512x512, .i1⟩
  | .hbm, ⟨28, _⟩ => ⟨S16x1x512x512, .f32⟩
  | .hbm, ⟨29, _⟩ => ⟨S_, .f32⟩
  | .hbm, ⟨30, _⟩ => ⟨S16x1x512x512, .f32⟩
  | .hbm, ⟨31, _⟩ => ⟨S16x1x512x512, .i1⟩
  | .hbm, ⟨32, _⟩ => ⟨S16x1x512x512, .i1⟩
  | .hbm, ⟨33, _⟩ => ⟨S16x1x511x512, .i1⟩
  | .hbm, ⟨34, _⟩ => ⟨S16x1x1x512, .i1⟩
  | .hbm, ⟨35, _⟩ => ⟨S16x1x512x512, .i1⟩
  | .hbm, ⟨36, _⟩ => ⟨S16x20x1x512, .f32⟩
  | .hbm, ⟨37, _⟩ => ⟨S16x20x511x512, .f32⟩
  | .hbm, ⟨38, _⟩ => ⟨S16x20x512x512, .f32⟩
  | .hbm, ⟨39, _⟩ => ⟨S16x20x511x512, .f32⟩
  | .hbm, ⟨40, _⟩ => ⟨S16x20x1x512, .f32⟩
  | .hbm, ⟨41, _⟩ => ⟨S16x20x512x512, .f32⟩
  | .hbm, ⟨42, _⟩ => ⟨S16x1x512x512, .f32⟩
  | .hbm, ⟨43, _⟩ => ⟨S16x1x512x512, .f32⟩
  | .hbm, ⟨44, _⟩ => ⟨S_, .f32⟩
  | .hbm, ⟨45, _⟩ => ⟨S16x1x512x512, .f32⟩
  | .hbm, ⟨46, _⟩ => ⟨S16x1x512x512, .f32⟩
  | .hbm, ⟨47, _⟩ => ⟨S_, .f32⟩
  | .hbm, ⟨48, _⟩ => ⟨S16x1x512x512, .f32⟩
  | .hbm, ⟨49, _⟩ => ⟨S16x1x512x512, .f32⟩
  | .hbm, ⟨50, _⟩ => ⟨S16x1x512x512, .f32⟩
  | .hbm, ⟨51, _⟩ => ⟨S16x20x512x512, .f32⟩
  | .hbm, ⟨52, _⟩ => ⟨S16x20x512x512, .f32⟩
  | .hbm, ⟨53, _⟩ => ⟨S16x20x512x512, .f32⟩
  | .hbm, ⟨54, _⟩ => ⟨S16x20x512x512, .f32⟩
  | .hbm, ⟨55, _⟩ => ⟨S16x20x512x512, .f32⟩
  | .hbm, ⟨56, _⟩ => ⟨S16x20x512x512, .f32⟩
  | .hbm, ⟨57, _⟩ => ⟨S16x20x512x512, .f32⟩
  | .hbm, ⟨58, _⟩ => ⟨S16x20x512x512, .f32⟩
  | .hbm, ⟨59, _⟩ => ⟨S16x1x512x512, .f32⟩
  | .hbm, ⟨60, _⟩ => ⟨S16x1x512x512, .f32⟩
  | .hbm, ⟨61, _⟩ => ⟨S_, .f32⟩
  | .hbm, ⟨62, _⟩ => ⟨S16x1x512x512, .f32⟩
  | .hbm, ⟨63, _⟩ => ⟨S16x1x512x512, .i1⟩
  | .hbm, ⟨64, _⟩ => ⟨S16x1x512x511, .f32⟩
  | .hbm, ⟨65, _⟩ => ⟨S16x1x512x1, .f32⟩
  | .hbm, ⟨66, _⟩ => ⟨S16x1x512x512, .f32⟩
  | .hbm, ⟨67, _⟩ => ⟨S16x1x1x512, .f32⟩
  | .hbm, ⟨68, _⟩ => ⟨S16x1x511x512, .f32⟩
  | .hbm, ⟨69, _⟩ => ⟨S16x1x512x512, .f32⟩
  | .hbm, ⟨70, _⟩ => ⟨S16x1x512x511, .f32⟩
  | .hbm, ⟨71, _⟩ => ⟨S16x1x512x1, .f32⟩
  | .hbm, ⟨72, _⟩ => ⟨S16x1x512x512, .f32⟩
  | .hbm, ⟨73, _⟩ => ⟨S16x1x512x512, .f32⟩
  | .hbm, ⟨74, _⟩ => ⟨S_, .f32⟩
  | .hbm, ⟨75, _⟩ => ⟨S16x1x512x512, .f32⟩
  | .hbm, ⟨76, _⟩ => ⟨S16x1x512x512, .i1⟩
  | .hbm, ⟨77, _⟩ => ⟨S16x1x512x512, .i1⟩
  | .hbm, ⟨78, _⟩ => ⟨S16x1x512x512, .f32⟩
  | .hbm, ⟨79, _⟩ => ⟨S_, .f32⟩
  | .hbm, ⟨80, _⟩ => ⟨S16x1x512x512, .f32⟩
  | .hbm, ⟨81, _⟩ => ⟨S16x1x512x512, .i1⟩
  | .hbm, ⟨82, _⟩ => ⟨S16x1x512x512, .i1⟩
  | .hbm, ⟨83, _⟩ => ⟨S16x1x512x512, .f32⟩
  | .hbm, ⟨84, _⟩ => ⟨S_, .f32⟩
  | .hbm, ⟨85, _⟩ => ⟨S16x1x512x512, .f32⟩
  | .hbm, ⟨86, _⟩ => ⟨S16x1x512x512, .i1⟩
  | .hbm, ⟨87, _⟩ => ⟨S16x1x512x512, .i1⟩
  | .hbm, ⟨88, _⟩ => ⟨S16x1x511x512, .i1⟩
  | .hbm, ⟨89, _⟩ => ⟨S16x1x1x512, .i1⟩
  | .hbm, ⟨90, _⟩ => ⟨S16x1x512x512, .i1⟩
  | .hbm, ⟨91, _⟩ => ⟨S16x20x1x512, .f32⟩
  | .hbm, ⟨92, _⟩ => ⟨S16x20x511x512, .f32⟩
  | .hbm, ⟨93, _⟩ => ⟨S16x20x512x512, .f32⟩
  | .hbm, ⟨94, _⟩ => ⟨S16x20x511x512, .f32⟩
  | .hbm, ⟨95, _⟩ => ⟨S16x20x1x512, .f32⟩
  | .hbm, ⟨96, _⟩ => ⟨S16x20x512x512, .f32⟩
  | .hbm, ⟨97, _⟩ => ⟨S16x1x512x512, .f32⟩
  | .hbm, ⟨98, _⟩ => ⟨S16x1x512x512, .f32⟩
  | .hbm, ⟨99, _⟩ => ⟨S_, .f32⟩
  | .hbm, ⟨100, _⟩ => ⟨S16x1x512x512, .f32⟩
  | .hbm, ⟨101, _⟩ => ⟨S16x1x512x512, .f32⟩
  | .hbm, ⟨102, _⟩ => ⟨S_, .f32⟩
  | .hbm, ⟨103, _⟩ => ⟨S16x1x512x512, .f32⟩
  | .hbm, ⟨104, _⟩ => ⟨S16x1x512x512, .f32⟩
  | .hbm, ⟨105, _⟩ => ⟨S16x1x512x512, .f32⟩
  | .hbm, ⟨106, _⟩ => ⟨S16x20x512x512, .f32⟩
  | .hbm, ⟨107, _⟩ => ⟨S16x20x512x512, .f32⟩
  | .hbm, ⟨108, _⟩ => ⟨S16x20x512x512, .f32⟩
  | .hbm, ⟨109, _⟩ => ⟨S16x20x512x512, .f32⟩
  | .hbm, ⟨110, _⟩ => ⟨S16x20x512x512, .f32⟩
  | .hbm, ⟨111, _⟩ => ⟨S16x20x512x512, .f32⟩
  | .hbm, ⟨112, _⟩ => ⟨S16x20x512x512, .f32⟩
  | .hbm, ⟨113, _⟩ => ⟨S16x20x512x512, .f32⟩
  | _, _ => ⟨S16x20x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_call2_v0 : Ref sig .tc := ⟨.hbm, 15, rfl⟩
abbrev main_call2_v1 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call3_v0 : Ref sig .tc := ⟨.hbm, 33, rfl⟩
abbrev main_call3_v1 : Ref sig .tc := ⟨.hbm, 34, rfl⟩
abbrev main_v19 : Ref sig .tc := ⟨.hbm, 35, rfl⟩
abbrev main_call4_v0 : Ref sig .tc := ⟨.hbm, 36, rfl⟩
abbrev main_call4_v1 : Ref sig .tc := ⟨.hbm, 37, rfl⟩
abbrev main_v20 : Ref sig .tc := ⟨.hbm, 38, rfl⟩
abbrev main_call5_v0 : Ref sig .tc := ⟨.hbm, 39, rfl⟩
abbrev main_call5_v1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_call6_v0 : Ref sig .tc := ⟨.hbm, 64, rfl⟩
abbrev main_call6_v1 : Ref sig .tc := ⟨.hbm, 65, rfl⟩
abbrev main_v41 : Ref sig .tc := ⟨.hbm, 66, rfl⟩
abbrev main_call7_v0 : Ref sig .tc := ⟨.hbm, 67, rfl⟩
abbrev main_call7_v1 : Ref sig .tc := ⟨.hbm, 68, rfl⟩
abbrev main_v42 : Ref sig .tc := ⟨.hbm, 69, rfl⟩
abbrev main_call8_v0 : Ref sig .tc := ⟨.hbm, 70, rfl⟩
abbrev main_call8_v1 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call9_v0 : Ref sig .tc := ⟨.hbm, 88, rfl⟩
abbrev main_call9_v1 : Ref sig .tc := ⟨.hbm, 89, rfl⟩
abbrev main_v56 : Ref sig .tc := ⟨.hbm, 90, rfl⟩
abbrev main_call10_v0 : Ref sig .tc := ⟨.hbm, 91, rfl⟩
abbrev main_call10_v1 : Ref sig .tc := ⟨.hbm, 92, rfl⟩
abbrev main_v57 : Ref sig .tc := ⟨.hbm, 93, rfl⟩
abbrev main_call11_v0 : Ref sig .tc := ⟨.hbm, 94, rfl⟩
abbrev main_call11_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_v62 : Ref sig .tc := ⟨.hbm, 101, rfl⟩
abbrev main_cst_10 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  slices_S16x20x512x512_S16x1x512x512_0_1_0_0 : S16x20x512x512.Slices ![0, 1, 0, 0] S16x1x512x512
  slices_S16x20x512x512_S16x1x512x512_0_0_0_0 : S16x20x512x512.Slices ![0, 0, 0, 0] S16x1x512x512
  bcast_S_S16x1x512x512 : S_.BroadcastsInDim S16x1x512x512 (![] : Fin 0 → Fin S16x1x512x512.rank)
  slices_S16x1x512x512_S16x1x512x1_0_0_0_511 : S16x1x512x512.Slices ![0, 0, 0, 511] S16x1x512x1
  slices_S16x1x512x512_S16x1x512x511_0_0_0_0 : S16x1x512x512.Slices ![0, 0, 0, 0] S16x1x512x511
  concatenates_S16x1x512x1_S16x1x512x511_S16x1x512x512_d3 : Shape.Concatenates [S16x1x512x1, S16x1x512x511] S16x1x512x512 3
  slices_S16x1x512x512_S16x1x1x512_0_0_511_0 : S16x1x512x512.Slices ![0, 0, 511, 0] S16x1x1x512
  slices_S16x1x512x512_S16x1x511x512_0_0_0_0 : S16x1x512x512.Slices ![0, 0, 0, 0] S16x1x511x512
  concatenates_S16x1x1x512_S16x1x511x512_S16x1x512x512_d2 : Shape.Concatenates [S16x1x1x512, S16x1x511x512] S16x1x512x512 2
  slices_S16x1x512x512_S16x1x511x512_0_0_1_0 : S16x1x512x512.Slices ![0, 0, 1, 0] S16x1x511x512
  slices_S16x1x512x512_S16x1x1x512_0_0_0_0 : S16x1x512x512.Slices ![0, 0, 0, 0] S16x1x1x512
  concatenates_S16x1x511x512_S16x1x1x512_S16x1x512x512_d2 : Shape.Concatenates [S16x1x511x512, S16x1x1x512] S16x1x512x512 2
  slices_S16x20x512x512_S16x20x1x512_0_0_511_0 : S16x20x512x512.Slices ![0, 0, 511, 0] S16x20x1x512
  slices_S16x20x512x512_S16x20x511x512_0_0_0_0 : S16x20x512x512.Slices ![0, 0, 0, 0] S16x20x511x512
  concatenates_S16x20x1x512_S16x20x511x512_S16x20x512x512_d2 : Shape.Concatenates [S16x20x1x512, S16x20x511x512] S16x20x512x512 2
  slices_S16x20x512x512_S16x20x511x512_0_0_1_0 : S16x20x512x512.Slices ![0, 0, 1, 0] S16x20x511x512
  slices_S16x20x512x512_S16x20x1x512_0_0_0_0 : S16x20x512x512.Slices ![0, 0, 0, 0] S16x20x1x512
  concatenates_S16x20x511x512_S16x20x1x512_S16x20x512x512_d2 : Shape.Concatenates [S16x20x511x512, S16x20x1x512] S16x20x512x512 2
  bcast_S16x1x512x512_S16x20x512x512_0_1_2_3 : S16x1x512x512.BroadcastsInDim S16x20x512x512 (![0, 1, 2, 3] : Fin 4 → Fin S16x20x512x512.rank)
  slices_S16x1x512x512_S16x1x512x511_0_0_0_1 : S16x1x512x512.Slices ![0, 0, 0, 1] S16x1x512x511
  slices_S16x1x512x512_S16x1x512x1_0_0_0_0 : S16x1x512x512.Slices ![0, 0, 0, 0] S16x1x512x1
  concatenates_S16x1x512x511_S16x1x512x1_S16x1x512x512_d3 : Shape.Concatenates [S16x1x512x511, S16x1x512x1] S16x1x512x512 3

variable [Facts₀]

class Facts : Prop extends Facts₀ where

variable [Facts]
-- ==== Proof.KernelPieces.lean ====
/-
  What each of the body's two cases leaves in the output block's staging buffer and in the six coefficient buffers,
  as values.

  At a batch's first block the body computes the six coefficient planes from the block, stores them, reads them back
  and stores the output block; at any other block it reads the six planes the batch's first block left and stores the
  output block. Either way the output block is ONE function of the six planes and the input block; at a first block
  the six planes are functions of that block.
-/
import proofs.«112188_j30296699306445_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0, 0, 0] : Fin 4 → Nat) = fun _ => 0 := funext fun a => by fin_cases a <;> rfl

/-- The six coefficient planes a batch's first block `x` gives: the first pass's complement product, move-up plane
    and receive plane, then the second pass's. -/
def sc0 (x : Vec F S1x2x512x512 .f32) : Vec F S1x1x512x512 .f32 := k0_pay13 (k0_pay5 x)
def sc1 (x : Vec F S1x2x512x512 .f32) : Vec F S1x1x512x512 .f32 := k0_pay14 (k0_pay3 x)
def sc2 (x : Vec F S1x2x512x512 .f32) : Vec F S1x1x512x512 .f32 := k0_pay15 (k0_pay4 x)
def sc3 (x : Vec F S1x2x512x512 .f32) : Vec F S1x1x512x512 .f32 := k0_pay16 (k0_pay12 (k0_pay7 x) (k0_pay8 x) (k0_pay9 x))
def sc4 (x : Vec F S1x2x512x512 .f32) : Vec F S1x1x512x512 .f32 := k0_pay17 (k0_pay10 (k0_pay7 x) (k0_pay8 x) (k0_pay9 x))
def sc5 (x : Vec F S1x2x512x512 .f32) : Vec F S1x1x512x512 .f32 := k0_pay18 (k0_pay11 (k0_pay7 x) (k0_pay8 x) (k0_pay9 x))

/-- The output block from six coefficient planes and the input block. -/
def blockOut (s0 s1 s2 s3 s4 s5 : Vec F S1x1x512x512 .f32) (x : Vec F S1x2x512x512 .f32) : Vec F S1x2x512x512 .f32 :=
  k0_pay1 s4 s5 (k0_pay19 s0 s1 s2 x) (k0_pay20 s0 s1 s2 x) (k0_pay21 s0 s1 s2 x) (k0_pay22 s3)

/-- Away from a batch's first block: the output block from the planes found in the buffers. -/
theorem out_B (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : ¬cond0_0 i)
    (x : Vec F S1x2x512x512 .f32) (xs0 xs1 xs2 xs3 xs4 xs5 : Vec F S1x1x512x512 .f32) :
    out0_B_1 c i a2 h2 a3 h3 a4 h4 a5 h5 a6 h6 a7 h7 a8 h8 a9 h9 hc x xs0 xs1 xs2 xs3 xs4 xs5 = blockOut xs0 xs1 xs2 xs3 xs4 xs5 x := by
  unfold out0_B_1
  rw [View.read_writes_eq_canon _ _ _ (cover0_B_1 c i a2 h2 a3 h3 a4 h4 a5 h5 a6 h6 a7 h7 a8 h8 a9 h9 hc x xs0 xs1 xs2 xs3 xs4 xs5)]
  unfold kernelRun0_B
  dsimp only
  sl_unfold_words
  rw [View.canon_unit_zero hz]
  simp only [View.readAt_eq_ld, h2.read_unread, h4.read_unread, h5.read_unread, h6.read_unread, h7.read_unread, h8.read_unread, h9.read_unread,
    View.ld_unit_zero (S := S1x2x512x512) hz, View.ld_unit_zero (S := S1x1x512x512) hz]
  rfl

/-- At a batch's first block: the output block from the planes that block gives. -/
theorem out_A (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    out0_A_1 c i a2 h2 a3 h3 a4 h4 a5 h5 a6 h6 a7 h7 a8 h8 a9 h9 hc x = blockOut (sc0 x) (sc1 x) (sc2 x) (sc3 x) (sc4 x) (sc5 x) x := by
  unfold out0_A_1
  rw [View.read_writes_eq_canon _ _ _ (cover0_A_1 c i a2 h2 a3 h3 a4 h4 a5 h5 a6 h6 a7 h7 a8 h8 a9 h9 hc x)]
  unfold kernelRun0_A
  dsimp only
  sl_unfold_words
  rw [View.canon_unit_zero hz]
  simp only [View.readCov_unit_zero (S := S1x1x512x512) _ hz, View.readAt_eq_ld, h2.read_unread,
    View.ld_unit_zero (S := S1x2x512x512) hz]
  rfl

/-- At a batch's first block: coefficient buffer 0 is left at that block's plane 0. -/
theorem sout_A_0 (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    sout0_A_0 c i a2 h2 a3 h3 a4 h4 a5 h5 a6 h6 a7 h7 a8 h8 a9 h9 hc x = sc0 x := by
  unfold sout0_A_0
  rw [View.read_writes_eq_canon _ _ _ (scover0_A_0 c i a2 h2 a3 h3 a4 h4 a5 h5 a6 h6 a7 h7 a8 h8 a9 h9 hc x)]
  unfold kernelRun0_A
  dsimp only
  sl_unfold_words
  rw [View.canon_unit_zero hz]
  simp only [View.readAt_eq_ld, h2.read_unread, View.ld_unit_zero (S := S1x2x512x512) hz]
  rfl

/-- At a batch's first block: coefficient buffer 1 is left at that block's plane 1. -/
theorem sout_A_1 (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    sout0_A_1 c i a2 h2 a3 h3 a4 h4 a5 h5 a6 h6 a7 h7 a8 h8 a9 h9 hc x = sc1 x := by
  unfold sout0_A_1
  rw [View.read_writes_eq_canon _ _ _ (scover0_A_1 c i a2 h2 a3 h3 a4 h4 a5 h5 a6 h6 a7 h7 a8 h8 a9 h9 hc x)]
  unfold kernelRun0_A
  dsimp only
  sl_unfold_words
  rw [View.canon_unit_zero hz]
  simp only [View.readAt_eq_ld, h2.read_unread, View.ld_unit_zero (S := S1x2x512x512) hz]
  rfl

/-- At a batch's first block: coefficient buffer 2 is left at that block's plane 2. -/
theorem sout_A_2 (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    sout0_A_2 c i a2 h2 a3 h3 a4 h4 a5 h5 a6 h6 a7 h7 a8 h8 a9 h9 hc x = sc2 x := by
  unfold sout0_A_2
  rw [View.read_writes_eq_canon _ _ _ (scover0_A_2 c i a2 h2 a3 h3 a4 h4 a5 h5 a6 h6 a7 h7 a8 h8 a9 h9 hc x)]
  unfold kernelRun0_A
  dsimp only
  sl_unfold_words
  rw [View.canon_unit_zero hz]
  simp only [View.readAt_eq_ld, h2.read_unread, View.ld_unit_zero (S := S1x2x512x512) hz]
  rfl

/-- At a batch's first block: coefficient buffer 3 is left at that block's plane 3. -/
theorem sout_A_3 (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    sout0_A_3 c i a2 h2 a3 h3 a4 h4 a5 h5 a6 h6 a7 h7 a8 h8 a9 h9 hc x = sc3 x := by
  unfold sout0_A_3
  rw [View.read_writes_eq_canon _ _ _ (scover0_A_3 c i a2 h2 a3 h3 a4 h4 a5 h5 a6 h6 a7 h7 a8 h8 a9 h9 hc x)]
  unfold kernelRun0_A
  dsimp only
  sl_unfold_words
  rw [View.canon_unit_zero hz]
  simp only [View.readAt_eq_ld, h2.read_unread, View.ld_unit_zero (S := S1x2x512x512) hz]
  rfl

/-- At a batch's first block: coefficient buffer 4 is left at that block's plane 4. -/
theorem sout_A_4 (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    sout0_A_4 c i a2 h2 a3 h3 a4 h4 a5 h5 a6 h6 a7 h7 a8 h8 a9 h9 hc x = sc4 x := by
  unfold sout0_A_4
  rw [View.read_writes_eq_canon _ _ _ (scover0_A_4 c i a2 h2 a3 h3 a4 h4 a5 h5 a6 h6 a7 h7 a8 h8 a9 h9 hc x)]
  unfold kernelRun0_A
  dsimp only
  sl_unfold_words
  rw [View.canon_unit_zero hz]
  simp only [View.readAt_eq_ld, h2.read_unread, View.ld_unit_zero (S := S1x2x512x512) hz]
  rfl

/-- At a batch's first block: coefficient buffer 5 is left at that block's plane 5. -/
theorem sout_A_5 (c : Dev nD) (i : grid0.Coords) (a2 : Memref sig .tc .vmem S1x2x512x512 .f32) (h2 : a2.IsWhole) (a3 : Memref sig .tc .vmem S1x2x512x512 .f32) (h3 : a3.IsWhole) (a4 : Memref sig .tc .vmem S1x1x512x512 .f32) (h4 : a4.IsWhole) (a5 : Memref sig .tc .vmem S1x1x512x512 .f32) (h5 : a5.IsWhole) (a6 : Memref sig .tc .vmem S1x1x512x512 .f32) (h6 : a6.IsWhole) (a7 : Memref sig .tc .vmem S1x1x512x512 .f32) (h7 : a7.IsWhole) (a8 : Memref sig .tc .vmem S1x1x512x512 .f32) (h8 : a8.IsWhole) (a9 : Memref sig .tc .vmem S1x1x512x512 .f32) (h9 : a9.IsWhole) (hc : cond0_0 i) (x : Vec F S1x2x512x512 .f32) :
    sout0_A_5 c i a2 h2 a3 h3 a4 h4 a5 h5 a6 h6 a7 h7 a8 h8 a9 h9 hc x = sc5 x := by
  unfold sout0_A_5
  rw [View.read_writes_eq_canon _ _ _ (scover0_A_5 c i a2 h2 a3 h3 a4 h4 a5 h5 a6 h6 a7 h7 a8 h8 a9 h9 hc x)]
  unfold kernelRun0_A
  dsimp only
  sl_unfold_words
  rw [View.canon_unit_zero hz]
  simp only [View.readAt_eq_ld, h2.read_unread, View.ld_unit_zero (S := S1x2x512x512) hz]
  rfl

end Cert.KernelIdeal.Pieces

end
-- ==== Proof.LibRing512.lean ====
/-
  Rank-4 arrays whose two last axes are rings of 512 positions, read at an index given by its four coordinates:
  a rotation along either ring, the slice that keeps one channel, the broadcast of one channel over all of
  them, a scalar spread over a whole array, and a rotation spelt as two slices laid end to end.
-/
import Idealize.ShloMosaic.PureOps.Ideal
import Idealize.ShloMosaic.Lib.ValueIdx
import Idealize.ShloMosaic.Lib.Pipeline.Value
import Idealize.ShloMosaic.Lib.KernelVsHost

noncomputable section

namespace Cert.Layout

open Idealize.ShloMosaic Idealize.ShloMosaic.ValueIdx

/-- A position on a ring of 512. -/
abbrev Row := Fin 512

/-- The position one step back around the ring: what a rotation by +1 reads. -/
def prev (h : Row) : Row := ⟨(h.val + 511) % 512, Nat.mod_lt _ (by decide)⟩
/-- The position one step on around the ring: what a rotation by -1 (that is, by 511) reads. -/
def next (h : Row) : Row := ⟨(h.val + 1) % 512, Nat.mod_lt _ (by decide)⟩

theorem prev_val (h : Row) : (prev h).val = (h.val + 511) % 512 := rfl
theorem next_val (h : Row) : (next h).val = (h.val + 1) % 512 := rfl

/-- `n0` batches of `n1` channels of 512 × 512 planes. -/
abbrev Sq (n0 n1 : Nat) : Shape := ⟨4, ![n0, n1, 512, 512]⟩

variable {α : Type} {n0 n1 : Nat}

/-! ## Rotations -/

/-- A rotation by 1 along the rows reads the row before. -/
theorem rotH_one (v : (Sq n0 n1).Idx → α) (hr : (Sq n0 n1).Rotates 2 none) (a : Fin n0) (b : Fin n1) (h x : Row) :
    dynamicRotate 2 1#32 none v hr (ix4 a b h x) = v (ix4 a b (prev h) x) :=
  dynamicRotate_apply 2 1#32 v hr _ _ (fun c => by
    match c with
    | ⟨0, _⟩ => exact (if_neg (Fin.ne_of_val_ne (by show (0 : ℕ) ≠ 2; decide))).symm
    | ⟨1, _⟩ => exact (if_neg (Fin.ne_of_val_ne (by show (1 : ℕ) ≠ 2; decide))).symm
    | ⟨2, _⟩ =>
      refine Eq.trans ?_ (if_pos (Fin.ext rfl)).symm
      show (h.val + 511) % 512 = (h.val + 512 - 1 % 512) % 512
      omega
    | ⟨3, _⟩ => exact (if_neg (Fin.ne_of_val_ne (by show (3 : ℕ) ≠ 2; decide))).symm)

/-- A rotation by 511 along the rows reads the row after. -/
theorem rotH_last (v : (Sq n0 n1).Idx → α) (hr : (Sq n0 n1).Rotates 2 none) (a : Fin n0) (b : Fin n1) (h x : Row) :
    dynamicRotate 2 511#32 none v hr (ix4 a b h x) = v (ix4 a b (next h) x) :=
  dynamicRotate_apply 2 511#32 v hr _ _ (fun c => by
    match c with
    | ⟨0, _⟩ => exact (if_neg (Fin.ne_of_val_ne (by show (0 : ℕ) ≠ 2; decide))).symm
    | ⟨1, _⟩ => exact (if_neg (Fin.ne_of_val_ne (by show (1 : ℕ) ≠ 2; decide))).symm
    | ⟨2, _⟩ =>
      refine Eq.trans ?_ (if_pos (Fin.ext rfl)).symm
      show (h.val + 1) % 512 = (h.val + 512 - 511 % 512) % 512
      omega
    | ⟨3, _⟩ => exact (if_neg (Fin.ne_of_val_ne (by show (3 : ℕ) ≠ 2; decide))).symm)

/-- A rotation by 1 along the columns reads the column before. -/
theorem rotW_one (v : (Sq n0 n1).Idx → α) (hr : (Sq n0 n1).Rotates 3 none) (a : Fin n0) (b : Fin n1) (h x : Row) :
    dynamicRotate 3 1#32 none v hr (ix4 a b h x) = v (ix4 a b h (prev x)) :=
  dynamicRotate_apply 3 1#32 v hr _ _ (fun c => by
    match c with
    | ⟨0, _⟩ => exact (if_neg (Fin.ne_of_val_ne (by show (0 : ℕ) ≠ 3; decide))).symm
    | ⟨1, _⟩ => exact (if_neg (Fin.ne_of_val_ne (by show (1 : ℕ) ≠ 3; decide))).symm
    | ⟨2, _⟩ => exact (if_neg (Fin.ne_of_val_ne (by show (2 : ℕ) ≠ 3; decide))).symm
    | ⟨3, _⟩ =>
      refine Eq.trans ?_ (if_pos (Fin.ext rfl)).symm
      show (x.val + 511) % 512 = (x.val + 512 - 1 % 512) % 512
      omega)

/-- A rotation by 511 along the columns reads the column after. -/
theorem rotW_last (v : (Sq n0 n1).Idx → α) (hr : (Sq n0 n1).Rotates 3 none) (a : Fin n0) (b : Fin n1) (h x : Row) :
    dynamicRotate 3 511#32 none v hr (ix4 a b h x) = v (ix4 a b h (next x)) :=
  dynamicRotate_apply 3 511#32 v hr _ _ (fun c => by
    match c with
    | ⟨0, _⟩ => exact (if_neg (Fin.ne_of_val_ne (by show (0 : ℕ) ≠ 3; decide))).symm
    | ⟨1, _⟩ => exact (if_neg (Fin.ne_of_val_ne (by show (1 : ℕ) ≠ 3; decide))).symm
    | ⟨2, _⟩ => exact (if_neg (Fin.ne_of_val_ne (by show (2 : ℕ) ≠ 3; decide))).symm
    | ⟨3, _⟩ =>
      refine Eq.trans ?_ (if_pos (Fin.ext rfl)).symm
      show (x.val + 1) % 512 = (x.val + 512 - 511 % 512) % 512
      omega)

/-! ## One channel kept, one channel spread -/

/-- The slice that keeps channel `o` of every batch reads that channel. -/
theorem sliceCh (o : Nat) (ho : o < n1) (v : (Sq n0 n1).Idx → α) (hs : (Sq n0 n1).Slices ![0, o, 0, 0] (Sq n0 1))
    (a : Fin n0) (b : Fin 1) (h x : Row) :
    extractStridedSlice (Sq n0 1) ![0, o, 0, 0] v hs (ix4 a b h x) = v (ix4 a (⟨o, ho⟩ : Fin n1) h x) :=
  extractStridedSlice_apply _ v hs _ _ (fun c => by
    match c with
    | ⟨0, _⟩ => show a.val = 0 + a.val; omega
    | ⟨1, _⟩ => show o = o + b.val; have := b.isLt; omega
    | ⟨2, _⟩ => show h.val = 0 + h.val; omega
    | ⟨3, _⟩ => show x.val = 0 + x.val; omega)

/-- A one-channel array spread over `n1` channels (the vector broadcast) reads its one channel. -/
theorem bcastCh (v : (Sq n0 1).Idx → α) (hb : (Sq n0 1).Broadcasts (Sq n0 n1)) (a : Fin n0) (b : Fin n1) (h x : Row) :
    broadcastTo (Sq n0 n1) v hb (ix4 a b h x) = v (ix4 a (0 : Fin 1) h x) :=
  broadcastTo_apply v hb _ _ (fun c => by
    match c with
    | ⟨0, _⟩ =>
      show a.val = if n0 = 1 then 0 else a.val
      split_ifs with h1
      · have := a.isLt; omega
      · rfl
    | ⟨1, _⟩ => show (0 : ℕ) = if (1 : ℕ) = 1 then 0 else _; rw [if_pos rfl]
    | ⟨2, _⟩ => show h.val = if (512 : ℕ) = 1 then 0 else h.val; rw [if_neg (by decide)]
    | ⟨3, _⟩ => show x.val = if (512 : ℕ) = 1 then 0 else x.val; rw [if_neg (by decide)])

/-- The same spread spelt as a broadcast along the identity axis map. -/
theorem bcastInCh (v : (Sq n0 1).Idx → α) (hb : (Sq n0 1).BroadcastsInDim (Sq n0 n1) ![0, 1, 2, 3])
    (a : Fin n0) (b : Fin n1) (h x : Row) :
    broadcastInDim (Sq n0 n1) ![0, 1, 2, 3] hb v (ix4 a b h x) = v (ix4 a (0 : Fin 1) h x) :=
  broadcastInDim_apply _ hb v _ _ (fun c => by
    match c with
    | ⟨0, _⟩ =>
      show a.val = if n0 = 1 then 0 else a.val
      split_ifs with h1
      · have := a.isLt; omega
      · rfl
    | ⟨1, _⟩ => show (0 : ℕ) = if (1 : ℕ) = 1 then 0 else _; rw [if_pos rfl]
    | ⟨2, _⟩ => show h.val = if (512 : ℕ) = 1 then 0 else h.val; rw [if_neg (by decide)]
    | ⟨3, _⟩ => show x.val = if (512 : ℕ) = 1 then 0 else x.val; rw [if_neg (by decide)])

/-- A scalar constant spread over any shape reads the extended real its word encodes. -/
theorem splat (s : Shape) (w : BitVec FTy.f32.bits) (hb : (⟨0, ![]⟩ : Shape).BroadcastsInDim s ![]) (i : s.Idx) :
    broadcastInDim s ![] hb (constant (F := Ideal) ⟨0, ![]⟩ .f32 w) i = Ideal.ofBits .f32 w :=
  (broadcastInDim_apply _ hb _ i ix0 (fun a => a.elim0)).trans rfl

/-! ## A rotation spelt as two slices laid end to end -/

/-- The last row in front of the first 511: a rotation by +1 along the rows. -/
theorem rollH_fwd (v : (Sq n0 n1).Idx → α)
    (hs1 : (Sq n0 n1).Slices ![0, 0, 511, 0] ⟨4, ![n0, n1, 1, 512]⟩)
    (hs2 : (Sq n0 n1).Slices ![0, 0, 0, 0] ⟨4, ![n0, n1, 511, 512]⟩)
    (hc : Shape.Concatenates [⟨4, ![n0, n1, 1, 512]⟩, ⟨4, ![n0, n1, 511, 512]⟩] (Sq n0 n1) 2)
    (a : Fin n0) (b : Fin n1) (h x : Row) :
    concatenate (Sq n0 n1) 2 [⟨_, extractStridedSlice ⟨4, ![n0, n1, 1, 512]⟩ ![0, 0, 511, 0] v hs1⟩,
      ⟨_, extractStridedSlice ⟨4, ![n0, n1, 511, 512]⟩ ![0, 0, 0, 0] v hs2⟩] hc (ix4 a b h x)
      = v (ix4 a b (prev h) x) := by
  by_cases h0 : h.val = 0
  · refine (concatenate_pair_apply_left 2 _ _ hc (ix4 a b h x) rfl (ix4 a b (0 : Fin 1) x) (fun c => by
      match c with
      | ⟨0, _⟩ => rfl
      | ⟨1, _⟩ => rfl
      | ⟨2, _⟩ => exact h0.symm
      | ⟨3, _⟩ => rfl)).trans ?_
    exact extractStridedSlice_apply _ v hs1 _ _ (fun c => by
      match c with
      | ⟨0, _⟩ => show a.val = 0 + a.val; omega
      | ⟨1, _⟩ => show b.val = 0 + b.val; omega
      | ⟨2, _⟩ => show (h.val + 511) % 512 = 511 + 0; omega
      | ⟨3, _⟩ => show x.val = 0 + x.val; omega)
  · have hh : h.val - 1 < 511 := by have := h.isLt; omega
    refine (concatenate_pair_apply_right 2 _ _ hc (ix4 a b h x) rfl rfl (ix4 a b (⟨h.val - 1, hh⟩ : Fin 511) x)
      (fun c hne => by
        match c, hne with
        | ⟨0, _⟩, _ => rfl
        | ⟨1, _⟩, _ => rfl
        | ⟨2, _⟩, hne => exact absurd (Fin.ext rfl) hne
        | ⟨3, _⟩, _ => rfl) (by show h.val - 1 + 1 = h.val; omega)).trans ?_
    exact extractStridedSlice_apply _ v hs2 _ _ (fun c => by
      match c with
      | ⟨0, _⟩ => show a.val = 0 + a.val; omega
      | ⟨1, _⟩ => show b.val = 0 + b.val; omega
      | ⟨2, _⟩ => show (h.val + 511) % 512 = 0 + (h.val - 1); omega
      | ⟨3, _⟩ => show x.val = 0 + x.val; omega)

/-- The last 511 rows in front of the first: a rotation by -1 along the rows. -/
theorem rollH_bwd (v : (Sq n0 n1).Idx → α)
    (hs1 : (Sq n0 n1).Slices ![0, 0, 1, 0] ⟨4, ![n0, n1, 511, 512]⟩)
    (hs2 : (Sq n0 n1).Slices ![0, 0, 0, 0] ⟨4, ![n0, n1, 1, 512]⟩)
    (hc : Shape.Concatenates [⟨4, ![n0, n1, 511, 512]⟩, ⟨4, ![n0, n1, 1, 512]⟩] (Sq n0 n1) 2)
    (a : Fin n0) (b : Fin n1) (h x : Row) :
    concatenate (Sq n0 n1) 2 [⟨_, extractStridedSlice ⟨4, ![n0, n1, 511, 512]⟩ ![0, 0, 1, 0] v hs1⟩,
      ⟨_, extractStridedSlice ⟨4, ![n0, n1, 1, 512]⟩ ![0, 0, 0, 0] v hs2⟩] hc (ix4 a b h x)
      = v (ix4 a b (next h) x) := by
  by_cases h0 : h.val < 511
  · refine (concatenate_pair_apply_left 2 _ _ hc (ix4 a b h x) rfl (ix4 a b (⟨h.val, h0⟩ : Fin 511) x) (fun c => by
      match c with
      | ⟨0, _⟩ => rfl
      | ⟨1, _⟩ => rfl
      | ⟨2, _⟩ => rfl
      | ⟨3, _⟩ => rfl)).trans ?_
    exact extractStridedSlice_apply _ v hs1 _ _ (fun c => by
      match c with
      | ⟨0, _⟩ => show a.val = 0 + a.val; omega
      | ⟨1, _⟩ => show b.val = 0 + b.val; omega
      | ⟨2, _⟩ => show (h.val + 1) % 512 = 1 + h.val; omega
      | ⟨3, _⟩ => show x.val = 0 + x.val; omega)
  · have hh : h.val = 511 := by have := h.isLt; omega
    refine (concatenate_pair_apply_right 2 _ _ hc (ix4 a b h x) rfl rfl (ix4 a b (0 : Fin 1) x)
      (fun c hne => by
        match c, hne with
        | ⟨0, _⟩, _ => rfl
        | ⟨1, _⟩, _ => rfl
        | ⟨2, _⟩, hne => exact absurd (Fin.ext rfl) hne
        | ⟨3, _⟩, _ => rfl) (by show 0 + 511 = h.val; omega)).trans ?_
    exact extractStridedSlice_apply _ v hs2 _ _ (fun c => by
      match c with
      | ⟨0, _⟩ => show a.val = 0 + a.val; omega
      | ⟨1, _⟩ => show b.val = 0 + b.val; omega
      | ⟨2, _⟩ => show (h.val + 1) % 512 = 0 + 0; omega
      | ⟨3, _⟩ => show x.val = 0 + x.val; omega)

/-- The last column in front of the first 511: a rotation by +1 along the columns. -/
theorem rollW_fwd (v : (Sq n0 n1).Idx → α)
    (hs1 : (Sq n0 n1).Slices ![0, 0, 0, 511] ⟨4, ![n0, n1, 512, 1]⟩)
    (hs2 : (Sq n0 n1).Slices ![0, 0, 0, 0] ⟨4, ![n0, n1, 512, 511]⟩)
    (hc : Shape.Concatenates [⟨4, ![n0, n1, 512, 1]⟩, ⟨4, ![n0, n1, 512, 511]⟩] (Sq n0 n1) 3)
    (a : Fin n0) (b : Fin n1) (h x : Row) :
    concatenate (Sq n0 n1) 3 [⟨_, extractStridedSlice ⟨4, ![n0, n1, 512, 1]⟩ ![0, 0, 0, 511] v hs1⟩,
      ⟨_, extractStridedSlice ⟨4, ![n0, n1, 512, 511]⟩ ![0, 0, 0, 0] v hs2⟩] hc (ix4 a b h x)
      = v (ix4 a b h (prev x)) := by
  by_cases h0 : x.val = 0
  · refine (concatenate_pair_apply_left 3 _ _ hc (ix4 a b h x) rfl (ix4 a b h (0 : Fin 1)) (fun c => by
      match c with
      | ⟨0, _⟩ => rfl
      | ⟨1, _⟩ => rfl
      | ⟨2, _⟩ => rfl
      | ⟨3, _⟩ => exact h0.symm)).trans ?_
    exact extractStridedSlice_apply _ v hs1 _ _ (fun c => by
      match c with
      | ⟨0, _⟩ => show a.val = 0 + a.val; omega
      | ⟨1, _⟩ => show b.val = 0 + b.val; omega
      | ⟨2, _⟩ => show h.val = 0 + h.val; omega
      | ⟨3, _⟩ => show (x.val + 511) % 512 = 511 + 0; omega)
  · have hh : x.val - 1 < 511 := by have := x.isLt; omega
    refine (concatenate_pair_apply_right 3 _ _ hc (ix4 a b h x) rfl rfl (ix4 a b h (⟨x.val - 1, hh⟩ : Fin 511))
      (fun c hne => by
        match c, hne with
        | ⟨0, _⟩, _ => rfl
        | ⟨1, _⟩, _ => rfl
        | ⟨2, _⟩, _ => rfl
        | ⟨3, _⟩, hne => exact absurd (Fin.ext rfl) hne) (by show x.val - 1 + 1 = x.val; omega)).trans ?_
    exact extractStridedSlice_apply _ v hs2 _ _ (fun c => by
      match c with
      | ⟨0, _⟩ => show a.val = 0 + a.val; omega
      | ⟨1, _⟩ => show b.val = 0 + b.val; omega
      | ⟨2, _⟩ => show h.val = 0 + h.val; omega
      | ⟨3, _⟩ => show (x.val + 511) % 512 = 0 + (x.val - 1); omega)

/-- The last 511 columns in front of the first: a rotation by -1 along the columns. -/
theorem rollW_bwd (v : (Sq n0 n1).Idx → α)
    (hs1 : (Sq n0 n1).Slices ![0, 0, 0, 1] ⟨4, ![n0, n1, 512, 511]⟩)
    (hs2 : (Sq n0 n1).Slices ![0, 0, 0, 0] ⟨4, ![n0, n1, 512, 1]⟩)
    (hc : Shape.Concatenates [⟨4, ![n0, n1, 512, 511]⟩, ⟨4, ![n0, n1, 512, 1]⟩] (Sq n0 n1) 3)
    (a : Fin n0) (b : Fin n1) (h x : Row) :
    concatenate (Sq n0 n1) 3 [⟨_, extractStridedSlice ⟨4, ![n0, n1, 512, 511]⟩ ![0, 0, 0, 1] v hs1⟩,
      ⟨_, extractStridedSlice ⟨4, ![n0, n1, 512, 1]⟩ ![0, 0, 0, 0] v hs2⟩] hc (ix4 a b h x)
      = v (ix4 a b h (next x)) := by
  by_cases h0 : x.val < 511
  · refine (concatenate_pair_apply_left 3 _ _ hc (ix4 a b h x) rfl (ix4 a b h (⟨x.val, h0⟩ : Fin 511)) (fun c => by
      match c with
      | ⟨0, _⟩ => rfl
      | ⟨1, _⟩ => rfl
      | ⟨2, _⟩ => rfl
      | ⟨3, _⟩ => rfl)).trans ?_
    exact extractStridedSlice_apply _ v hs1 _ _ (fun c => by
      match c with
      | ⟨0, _⟩ => show a.val = 0 + a.val; omega
      | ⟨1, _⟩ => show b.val = 0 + b.val; omega
      | ⟨2, _⟩ => show h.val = 0 + h.val; omega
      | ⟨3, _⟩ => show (x.val + 1) % 512 = 1 + x.val; omega)
  · have hh : x.val = 511 := by have := x.isLt; omega
    refine (concatenate_pair_apply_right 3 _ _ hc (ix4 a b h x) rfl rfl (ix4 a b h (0 : Fin 1))
      (fun c hne => by
        match c, hne with
        | ⟨0, _⟩, _ => rfl
        | ⟨1, _⟩, _ => rfl
        | ⟨2, _⟩, _ => rfl
        | ⟨3, _⟩, hne => exact absurd (Fin.ext rfl) hne) (by show 0 + 511 = x.val; omega)).trans ?_
    exact extractStridedSlice_apply _ v hs2 _ _ (fun c => by
      match c with
      | ⟨0, _⟩ => show a.val = 0 + a.val; omega
      | ⟨1, _⟩ => show b.val = 0 + b.val; omega
      | ⟨2, _⟩ => show h.val = 0 + h.val; omega
      | ⟨3, _⟩ => show (x.val + 1) % 512 = 0 + 0; omega)

/-! ## A one-bit word as a float -/

/-- A bit widened to 32 bits and read signed is the bit read unsigned: 0 or 1 either way. -/
theorem bit_to_float (b : BitVec 1) :
    FloatOps.sitofp (F := Ideal) .f32 (b.setWidth 32) = FloatOps.uitofp (F := Ideal) .f32 b := by
  rcases BitVec.eq_zero_or_eq_one b with rfl | rfl
  · show (((BitVec.setWidth 32 0#1).toInt : ℝ) : EReal) = (((0#1 : BitVec 1).toNat : ℝ) : EReal)
    simp
  · show (((BitVec.setWidth 32 1#1).toInt : ℝ) : EReal) = (((1#1 : BitVec 1).toNat : ℝ) : EReal)
    simp

end Cert.Layout

end
-- ==== Proof.Stencil.lean ====
/-
  The two-pass falling rule on one batch of 512 × 512 planes, as plain functions of the row and column on the
  extended reals.

  A cell of the element plane `e` with density plane `d` MOVES UP when it holds the element (`e = 3`), the cell beside it
  (on the side the pass looks at) is at least as dense, and both the cell above and the cell above the one beside are
  less dense. With `a` the 0/1 plane of the cells that move up and `b` the same plane read one row on (the cells that
  receive from below), every channel `f` of the batch is blended row-wise:
  `(1 - a)·(1 - b)·f + a·f(row before) + b·f(row after)`. The first pass looks one column back, the second one column on,
  and the second pass takes its element and density planes from the first pass's result.
-/
import proofs.«112188_j30296699306445_2_alg».proof.Proof.LibRing512

noncomputable section

namespace Cert.Stencil

open Idealize.ShloMosaic Idealize.ShloMosaic.ValueIdx Cert.Layout

/-- One 512 × 512 plane of extended reals. -/
abbrev Plane := Row → Row → EReal

/-- The element id 3.0, the zero and the one, as the words both programs spell. -/
abbrev three : EReal := Ideal.ofBits .f32 0x40400000#32
abbrev zero : EReal := Ideal.ofBits .f32 0x00000000#32
abbrev one : EReal := Ideal.ofBits .f32 0x3F800000#32

/-- The bit "this cell moves up", looking at the column `side x`. -/
def moves (e d : Plane) (side : Row → Row) (h x : Row) : BitVec 1 :=
  IntOp.andi (IntOp.andi (IntOp.andi (FloatOps.cmpf (F := Ideal) (φ := .f32) .oeq (e h x) three)
        (FloatOps.cmpf (F := Ideal) (φ := .f32) .oge (d h (side x) - d h x) zero))
      (FloatOps.cmpf (F := Ideal) (φ := .f32) .olt (d (prev h) x - d h x) zero))
    (FloatOps.cmpf (F := Ideal) (φ := .f32) .olt (d (prev h) (side x) - d h x) zero)

/-- A bit as the float 0 or 1. -/
def wt (b : BitVec 1) : EReal := FloatOps.uitofp (F := Ideal) .f32 b

/-- One channel after a pass with move-up plane `a` and receive plane `b`. -/
def blend (a b f : Plane) : Plane := fun h x =>
  ((one - a h x) * (one - b h x)) * f h x + a h x * f (prev h) x + b h x * f (next h) x

/-- First pass: the cells that move up, the cells that receive, a channel after the pass. -/
def up1 (e d : Plane) : Plane := fun h x => wt (moves e d prev h x)
def rc1 (e d : Plane) : Plane := fun h x => up1 e d (next h) x
def mid (e d f : Plane) : Plane := blend (up1 e d) (rc1 e d) f

/-- Second pass, on the first pass's element and density planes. -/
def up2 (e d : Plane) : Plane := fun h x => wt (moves (mid e d e) (mid e d d) next h x)
def rc2 (e d : Plane) : Plane := fun h x => up2 e d (next h) x
def out (e d f : Plane) : Plane := blend (up2 e d) (rc2 e d) (mid e d f)

/-- The whole result: batch `B`'s channel `c` is `out` of that batch's channels 0 (element) and 1 (density). -/
def G (W : (Sq 16 20).Idx → EReal) : (Sq 16 20).Idx → EReal := fun i =>
  out (fun h x => W (ix4 (i 0) (0 : Fin 20) h x)) (fun h x => W (ix4 (i 0) (1 : Fin 20) h x))
    (fun h x => W (ix4 (i 0) (i 1) h x)) (i 2) (i 3)

theorem G_apply (W : (Sq 16 20).Idx → EReal) (B : Fin 16) (c : Fin 20) (h x : Row) :
    G W (ix4 B c h x) = out (fun h x => W (ix4 B (0 : Fin 20) h x)) (fun h x => W (ix4 B (1 : Fin 20) h x))
      (fun h x => W (ix4 B c h x)) h x := rfl

end Cert.Stencil

end
-- ==== Proof.KernelBody.lean ====
/-
  The kernel body's arithmetic read at an index, on the extended reals.

  A block is two channels of one batch; the six coefficient planes are one-channel arrays. With `e` and `d` the
  element and density planes of the batch's first block, the body's intermediate values at row `h`, column `x` are
  the specification's: the first pass's move-up plane, its receive plane (the same plane one row on), their
  complement product, the block after the first pass, and the same for the second pass on the first pass's planes;
  and from ANY six coefficient planes the body's output on a block is two row-wise passes in turn, each
  `a·f + b·f(row before) + c·f(row after)` with its own three planes.
-/
import proofs.«112188_j30296699306445_2_alg».proof.Proof.Gen.KernelIdeal.Skeleton
import proofs.«112188_j30296699306445_2_alg».proof.Proof.Stencil
import proofs.«112188_j30296699306445_2_alg».proof.Proof.KernelPieces

noncomputable section

namespace Cert.KernelBody

open Idealize.ShloMosaic Idealize.ShloMosaic.ValueIdx Cert.KernelIdeal Cert.KernelIdeal.Gen Cert.Layout Cert.Stencil
open Cert.KernelIdeal.Pieces

/-- A two-channel block and a one-channel plane array of extended reals. -/
abbrev Blk := Vec Ideal S1x2x512x512 .f32
abbrev Pln := Vec Ideal S1x1x512x512 .f32

/-- Channel `j` of a block as a plane; the one channel of a plane array as a plane. -/
abbrev chan (X : Blk) (j : Fin 2) : Plane := fun h x => X (ix4 (0 : Fin 1) j h x)
abbrev pl (s : Pln) : Plane := fun h x => s (ix4 (0 : Fin 1) (0 : Fin 1) h x)

/-- The complement product of a move-up plane `a` and a receive plane `b`: the weight of the cells that stay. -/
def keep (a b : Plane) : Plane := fun h x => (one - a h x) * (one - b h x)

/-- One row-wise pass with coefficient planes `a`, `b`, `c`: `a·f + b·f(row before) + c·f(row after)`. -/
def pass (a b c f : Plane) : Plane := fun h x => (a h x * f h x + b h x * f (prev h) x) + c h x * f (next h) x

/-- The specification's blend is the pass whose first plane is the complement product of the other two. -/
theorem blend_eq_pass (a b f : Plane) : blend a b f = pass (keep a b) a b f := rfl

variable (X : Blk)

/-! ## First pass, from a batch's first block -/

/-- The block rotated by one row reads the row before. -/
theorem pay2_apply (j : Fin 2) (h x : Row) : k0_pay2 X (ix4 (0 : Fin 1) j h x) = chan X j (prev h) x := by
  unfold k0_pay2
  exact rotH_one (n0 := 1) (n1 := 2) X _ 0 j h x

/-- The first pass's move-up plane. -/
theorem pay3_apply (h x : Row) : k0_pay3 X (ix4 (0 : Fin 1) (0 : Fin 1) h x) = up1 (chan X 0) (chan X 1) h x := by
  unfold k0_pay3
  simp only [sitofp_apply, extui_apply, andi, cmpf_apply, subf_apply, broadcast_apply,
    rotW_one (n0 := 1) (n1 := 1), sliceCh (n0 := 1) (n1 := 2) 0 (by decide), sliceCh (n0 := 1) (n1 := 2) 1 (by decide),
    pay2_apply, bit_to_float]
  rfl

/-- The first pass's receive plane: the move-up plane one row on. -/
theorem pay4_apply (h x : Row) : k0_pay4 X (ix4 (0 : Fin 1) (0 : Fin 1) h x) = rc1 (chan X 0) (chan X 1) h x := by
  unfold k0_pay4
  simp only [rotH_last (n0 := 1) (n1 := 1), pay3_apply]
  rfl

/-- The first pass's complement product. -/
theorem pay5_apply (h x : Row) :
    k0_pay5 X (ix4 (0 : Fin 1) (0 : Fin 1) h x) = keep (up1 (chan X 0) (chan X 1)) (rc1 (chan X 0) (chan X 1)) h x := by
  unfold k0_pay5
  simp only [mulf_apply, subf_apply, broadcast_apply, pay3_apply, pay4_apply]
  rfl

/-- The block after the first pass, channel by channel. -/
theorem pay6_apply (j : Fin 2) (h x : Row) :
    k0_pay6 X (ix4 (0 : Fin 1) j h x) = mid (chan X 0) (chan X 1) (chan X j) h x := by
  unfold k0_pay6
  simp only [addf_apply, mulf_apply, bcastCh (n0 := 1) (n1 := 2), rotH_last (n0 := 1) (n1 := 2),
    pay2_apply, pay3_apply, pay4_apply, pay5_apply]
  rfl

/-- The density plane after the first pass. -/
theorem pay7_apply (h x : Row) : k0_pay7 X (ix4 (0 : Fin 1) (0 : Fin 1) h x) = mid (chan X 0) (chan X 1) (chan X 1) h x := by
  unfold k0_pay7
  simp only [sliceCh (n0 := 1) (n1 := 2) 1 (by decide), pay6_apply]
  rfl

/-- The second pass's first comparison: the element plane after the first pass against the element id. -/
theorem pay8_apply (h x : Row) :
    k0_pay8 X (ix4 (0 : Fin 1) (0 : Fin 1) h x)
      = FloatOps.cmpf (F := Ideal) (φ := .f32) .oeq (mid (chan X 0) (chan X 1) (chan X 0) h x) three := by
  unfold k0_pay8
  simp only [cmpf_apply, broadcast_apply, sliceCh (n0 := 1) (n1 := 2) 0 (by decide), pay6_apply]
  rfl

/-- The density plane after the first pass, one row back. -/
theorem pay9_apply (h x : Row) : k0_pay9 X (ix4 (0 : Fin 1) (0 : Fin 1) h x) = mid (chan X 0) (chan X 1) (chan X 1) (prev h) x := by
  unfold k0_pay9
  simp only [rotH_one (n0 := 1) (n1 := 1), pay7_apply]

/-! ## Second pass, on the first pass's element and density planes -/

/-- The second pass's move-up plane. -/
theorem pay10_apply (h x : Row) :
    k0_pay10 (k0_pay7 (F := Ideal) X) (k0_pay8 (F := Ideal) X) (k0_pay9 (F := Ideal) X) (ix4 (0 : Fin 1) (0 : Fin 1) h x) = up2 (chan X 0) (chan X 1) h x := by
  unfold k0_pay10
  simp only [sitofp_apply, extui_apply, andi, cmpf_apply, subf_apply, broadcast_apply,
    rotW_last (n0 := 1) (n1 := 1), pay7_apply, pay8_apply, pay9_apply, bit_to_float]
  rfl

/-- The second pass's receive plane: the move-up plane one row on. -/
theorem pay11_apply (h x : Row) :
    k0_pay11 (k0_pay7 (F := Ideal) X) (k0_pay8 (F := Ideal) X) (k0_pay9 (F := Ideal) X) (ix4 (0 : Fin 1) (0 : Fin 1) h x) = rc2 (chan X 0) (chan X 1) h x := by
  unfold k0_pay11
  simp only [rotH_last (n0 := 1) (n1 := 1), pay10_apply]
  rfl

/-- The second pass's complement product. -/
theorem pay12_apply (h x : Row) :
    k0_pay12 (k0_pay7 (F := Ideal) X) (k0_pay8 (F := Ideal) X) (k0_pay9 (F := Ideal) X) (ix4 (0 : Fin 1) (0 : Fin 1) h x)
      = keep (up2 (chan X 0) (chan X 1)) (rc2 (chan X 0) (chan X 1)) h x := by
  unfold k0_pay12
  simp only [mulf_apply, subf_apply, broadcast_apply, pay10_apply, pay11_apply]
  rfl

/-! ## One pass over a block, from any three coefficient planes -/

/-- The body's first blend of a block. -/
theorem pay19_apply (s0 s1 s2 : Pln) (j : Fin 2) (h x : Row) :
    k0_pay19 (F := Ideal) s0 s1 s2 X (ix4 (0 : Fin 1) j h x) = pass (pl s0) (pl s1) (pl s2) (chan X j) h x := by
  unfold k0_pay19
  simp only [addf_apply, mulf_apply, bcastCh (n0 := 1) (n1 := 2), rotH_one (n0 := 1) (n1 := 2), rotH_last (n0 := 1) (n1 := 2)]
  rfl

/-- The first blend one row back and one row on. -/
theorem pay20_apply (s0 s1 s2 : Pln) (j : Fin 2) (h x : Row) :
    k0_pay20 (F := Ideal) s0 s1 s2 X (ix4 (0 : Fin 1) j h x) = pass (pl s0) (pl s1) (pl s2) (chan X j) (prev h) x := by
  unfold k0_pay20
  simp only [rotH_one (n0 := 1) (n1 := 2), pay19_apply]

theorem pay21_apply (s0 s1 s2 : Pln) (j : Fin 2) (h x : Row) :
    k0_pay21 (F := Ideal) s0 s1 s2 X (ix4 (0 : Fin 1) j h x) = pass (pl s0) (pl s1) (pl s2) (chan X j) (next h) x := by
  unfold k0_pay21
  simp only [rotH_last (n0 := 1) (n1 := 2), pay19_apply]

/-- A coefficient plane spread over the block's two channels. -/
theorem pay22_apply (s : Pln) (j : Fin 2) (h x : Row) : k0_pay22 (F := Ideal) s (ix4 (0 : Fin 1) j h x) = pl s h x := by
  unfold k0_pay22
  exact bcastCh (n0 := 1) (n1 := 2) s _ 0 j h x

/-! ## The whole body on a block, from any six coefficient planes -/

/-- The body's second blend, from the first blend and its two rotations. -/
theorem pay1_apply (s4 s5 : Pln) (v19 v20 v21 v22 : Blk) (j : Fin 2) (h x : Row) :
    k0_pay1 (F := Ideal) s4 s5 v19 v20 v21 v22 (ix4 (0 : Fin 1) j h x)
      = (chan v22 j h x * chan v19 j h x + pl s4 h x * chan v20 j h x) + pl s5 h x * chan v21 j h x := by
  unfold k0_pay1
  simp only [addf_apply, mulf_apply, bcastCh (n0 := 1) (n1 := 2)]

/-- The body's output block is two passes in turn: the first with planes 0, 1, 2, the second with planes 3, 4, 5. -/
theorem blockOut_pass (s0 s1 s2 s3 s4 s5 : Pln) (j : Fin 2) (h x : Row) :
    blockOut (F := Ideal) s0 s1 s2 s3 s4 s5 X (ix4 (0 : Fin 1) j h x)
      = pass (pl s3) (pl s4) (pl s5) (pass (pl s0) (pl s1) (pl s2) (chan X j)) h x := by
  unfold blockOut
  rw [pay1_apply]
  show (k0_pay22 (F := Ideal) s3 (ix4 (0 : Fin 1) j h x) * k0_pay19 (F := Ideal) s0 s1 s2 X (ix4 (0 : Fin 1) j h x)
      + pl s4 h x * k0_pay20 (F := Ideal) s0 s1 s2 X (ix4 (0 : Fin 1) j h x))
      + pl s5 h x * k0_pay21 (F := Ideal) s0 s1 s2 X (ix4 (0 : Fin 1) j h x) = _
  rw [pay22_apply, pay19_apply, pay20_apply, pay21_apply]
  rfl

/-! ## The six planes a batch's first block gives -/

variable (X0 : Blk)

/-- A cast to the same shape changes nothing: each stored plane is the plane computed. -/
theorem sc0_eq : sc0 (F := Ideal) X0 = k0_pay5 X0 := by
  unfold sc0 k0_pay13
  exact shapeCast_self _ _
theorem sc1_eq : sc1 (F := Ideal) X0 = k0_pay3 X0 := by
  unfold sc1 k0_pay14
  exact shapeCast_self _ _
theorem sc2_eq : sc2 (F := Ideal) X0 = k0_pay4 X0 := by
  unfold sc2 k0_pay15
  exact shapeCast_self _ _
theorem sc3_eq : sc3 (F := Ideal) X0 = k0_pay12 (k0_pay7 X0) (k0_pay8 X0) (k0_pay9 X0) := by
  unfold sc3 k0_pay16
  exact shapeCast_self _ _
theorem sc4_eq : sc4 (F := Ideal) X0 = k0_pay10 (k0_pay7 X0) (k0_pay8 X0) (k0_pay9 X0) := by
  unfold sc4 k0_pay17
  exact shapeCast_self _ _
theorem sc5_eq : sc5 (F := Ideal) X0 = k0_pay11 (k0_pay7 X0) (k0_pay8 X0) (k0_pay9 X0) := by
  unfold sc5 k0_pay18
  exact shapeCast_self _ _

/-- The six planes are the specification's: complement product, move-up plane, receive plane, of each pass. -/
theorem pl_sc0 : pl (sc0 (F := Ideal) X0) = keep (up1 (chan X0 0) (chan X0 1)) (rc1 (chan X0 0) (chan X0 1)) := by
  funext h x
  exact (congrFun (sc0_eq X0) _).trans (pay5_apply X0 h x)
theorem pl_sc1 : pl (sc1 (F := Ideal) X0) = up1 (chan X0 0) (chan X0 1) := by
  funext h x
  exact (congrFun (sc1_eq X0) _).trans (pay3_apply X0 h x)
theorem pl_sc2 : pl (sc2 (F := Ideal) X0) = rc1 (chan X0 0) (chan X0 1) := by
  funext h x
  exact (congrFun (sc2_eq X0) _).trans (pay4_apply X0 h x)
theorem pl_sc3 : pl (sc3 (F := Ideal) X0) = keep (up2 (chan X0 0) (chan X0 1)) (rc2 (chan X0 0) (chan X0 1)) := by
  funext h x
  exact (congrFun (sc3_eq X0) _).trans (pay12_apply X0 h x)
theorem pl_sc4 : pl (sc4 (F := Ideal) X0) = up2 (chan X0 0) (chan X0 1) := by
  funext h x
  exact (congrFun (sc4_eq X0) _).trans (pay10_apply X0 h x)
theorem pl_sc5 : pl (sc5 (F := Ideal) X0) = rc2 (chan X0 0) (chan X0 1) := by
  funext h x
  exact (congrFun (sc5_eq X0) _).trans (pay11_apply X0 h x)

/-- With the six planes of the batch's first block `X0`, the body's output on ANY block `X` of the batch is the
    two-pass rule on that block's channels, driven by the first block's element and density planes. -/
theorem blockOut_apply (j : Fin 2) (h x : Row) :
    blockOut (F := Ideal) (sc0 (F := Ideal) X0) (sc1 (F := Ideal) X0) (sc2 (F := Ideal) X0) (sc3 (F := Ideal) X0) (sc4 (F := Ideal) X0) (sc5 (F := Ideal) X0) X (ix4 (0 : Fin 1) j h x)
      = out (chan X0 0) (chan X0 1) (chan X j) h x := by
  rw [blockOut_pass, pl_sc0, pl_sc1, pl_sc2, pl_sc3, pl_sc4, pl_sc5]
  rfl

end Cert.KernelBody

end
-- ==== Proof.KernelValue.lean ====
/-
  The kernel's result array, whole: the specification of the argument array.

  The grid has 160 points: point `t` works on batch `t / 10`, channels `2·(t % 10)` and `2·(t % 10) + 1`. The first point
  of a batch (`t % 10 = 0`) computes the six coefficient planes from its block — the batch's element and density
  channels — and leaves them in the scratch buffers; every later point of the batch keeps them. So after any point
  the buffers hold the planes of the block at the batch's first point (`planes_eq`, by induction on the point), and
  the block a point writes back is the two blends, by those planes, of its own block (`block_eq`). A block holds whole
  rows and columns of its two channels, so a rotation inside the block is the rotation of the array's plane; read at
  batch, channel, row and column, what point `t` writes back is the specification `Stencil.G` of the argument array at
  the block's indices (`flushed_eq`). The 160 blocks tile the array, so the array ends as `G` of the argument.
-/
import proofs.«112188_j30296699306445_2_alg».proof.Proof.Gen.KernelIdeal.Value
import proofs.«112188_j30296699306445_2_alg».proof.Proof.KernelPieces
import proofs.«112188_j30296699306445_2_alg».proof.Proof.KernelBody
import proofs.«112188_j30296699306445_2_alg».proof.Proof.Stencil
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Pieces Cert.Layout Cert.Stencil

/-! ## What the buffers hold after each grid point (any float instance) -/

section AnyInstance

variable {F : FTy → Type} [FloatOps F]
variable (m : (ℓ : Loc nD τ sig) → Buf (Elt F) ℓ)

/-- At a batch's first point coefficient buffer 0 is left at plane 0 of the point's block. -/
theorem firstA_0 (c : Dev nD) (t : Fin cfg0.N) (h0 : t.val % 10 = 0) :
    sout0_A_0 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) = sc0 (iblk m c 0 t) :=
  sout_A_0 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At a batch's first point coefficient buffer 1 is left at plane 1 of the point's block. -/
theorem firstA_1 (c : Dev nD) (t : Fin cfg0.N) (h0 : t.val % 10 = 0) :
    sout0_A_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) = sc1 (iblk m c 0 t) :=
  sout_A_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At a batch's first point coefficient buffer 2 is left at plane 2 of the point's block. -/
theorem firstA_2 (c : Dev nD) (t : Fin cfg0.N) (h0 : t.val % 10 = 0) :
    sout0_A_2 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) = sc2 (iblk m c 0 t) :=
  sout_A_2 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At a batch's first point coefficient buffer 3 is left at plane 3 of the point's block. -/
theorem firstA_3 (c : Dev nD) (t : Fin cfg0.N) (h0 : t.val % 10 = 0) :
    sout0_A_3 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) = sc3 (iblk m c 0 t) :=
  sout_A_3 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At a batch's first point coefficient buffer 4 is left at plane 4 of the point's block. -/
theorem firstA_4 (c : Dev nD) (t : Fin cfg0.N) (h0 : t.val % 10 = 0) :
    sout0_A_4 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) = sc4 (iblk m c 0 t) :=
  sout_A_4 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At a batch's first point coefficient buffer 5 is left at plane 5 of the point's block. -/
theorem firstA_5 (c : Dev nD) (t : Fin cfg0.N) (h0 : t.val % 10 = 0) :
    sout0_A_5 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) = sc5 (iblk m c 0 t) :=
  sout_A_5 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At a batch's first point the output block is `blockOut` of the point's own planes and block. -/
theorem firstOut (c : Dev nD) (t : Fin cfg0.N) (h0 : t.val % 10 = 0) :
    out0_A_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)
      = blockOut (sc0 (iblk m c 0 t)) (sc1 (iblk m c 0 t)) (sc2 (iblk m c 0 t)) (sc3 (iblk m c 0 t)) (sc4 (iblk m c 0 t))
          (sc5 (iblk m c 0 t)) (iblk m c 0 t) :=
  out_A c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t)

/-- At any other point it is `blockOut` of the planes found in the buffers and the point's block. -/
theorem laterOut (c : Dev nD) (t : Fin cfg0.N) (h0 : ¬t.val % 10 = 0) (xs0 xs1 xs2 xs3 xs4 xs5 : Vec F S1x1x512x512 .f32) :
    out0_B_1 c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) xs0 xs1 xs2 xs3 xs4 xs5
      = blockOut xs0 xs1 xs2 xs3 xs4 xs5 (iblk m c 0 t) :=
  out_B c (grid0.coords t) (ms0_0 t) (hs0_0 t) (ms0_1 t) (hs0_1 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) xs0 xs1 xs2 xs3 xs4 xs5

/-- THE INVARIANT. After point `n` the six coefficient buffers hold the planes of the block at the first point
    `10·(n / 10)` of `n`'s batch: set there, kept by every later point of the batch. By induction on the point. -/
theorem planes_eq (c : Dev nD) (n : ℕ) : ∀ (h : n < cfg0.N) (b : ℕ) (hb : b < cfg0.N), b = 10 * (n / 10) →
    (outsAt0 m c n h).2.1 = sc0 (iblk m c 0 ⟨b, hb⟩) ∧ (outsAt0 m c n h).2.2.1 = sc1 (iblk m c 0 ⟨b, hb⟩)
      ∧ (outsAt0 m c n h).2.2.2.1 = sc2 (iblk m c 0 ⟨b, hb⟩) ∧ (outsAt0 m c n h).2.2.2.2.1 = sc3 (iblk m c 0 ⟨b, hb⟩)
      ∧ (outsAt0 m c n h).2.2.2.2.2.1 = sc4 (iblk m c 0 ⟨b, hb⟩) ∧ (outsAt0 m c n h).2.2.2.2.2.2 = sc5 (iblk m c 0 ⟨b, hb⟩) := by
  induction n with
  | zero =>
    intro h b hb e
    obtain rfl : b = 0 := by omega
    rw [outsAt0_A m c ⟨0, h⟩ rfl]
    dsimp only
    exact ⟨firstA_0 m c ⟨0, h⟩ rfl, firstA_1 m c ⟨0, h⟩ rfl, firstA_2 m c ⟨0, h⟩ rfl, firstA_3 m c ⟨0, h⟩ rfl,
      firstA_4 m c ⟨0, h⟩ rfl, firstA_5 m c ⟨0, h⟩ rfl⟩
  | succ n ih =>
    intro h b hb e
    by_cases h0 : (n + 1) % 10 = 0
    · obtain rfl : b = n + 1 := by omega
      rw [outsAt0_A m c ⟨n + 1, h⟩ h0]
      dsimp only
      exact ⟨firstA_0 m c ⟨n + 1, h⟩ h0, firstA_1 m c ⟨n + 1, h⟩ h0, firstA_2 m c ⟨n + 1, h⟩ h0,
        firstA_3 m c ⟨n + 1, h⟩ h0, firstA_4 m c ⟨n + 1, h⟩ h0, firstA_5 m c ⟨n + 1, h⟩ h0⟩
    · rw [outsAt0_B m c ⟨n + 1, h⟩ h0]
      unfold sout0_B_0 sout0_B_1 sout0_B_2 sout0_B_3 sout0_B_4 sout0_B_5
      dsimp only
      exact ih (Nat.lt_of_succ_lt h) b hb (by omega)

/-- So the output block after point `t` is `blockOut` of the planes of its batch's first block and its own block. -/
theorem block_eq (c : Dev nD) (t : Fin cfg0.N) (b : ℕ) (hb : b < cfg0.N) (e : b = 10 * (t.val / 10)) :
    (outsAt0 m c t.val t.isLt).1 = blockOut (sc0 (iblk m c 0 ⟨b, hb⟩)) (sc1 (iblk m c 0 ⟨b, hb⟩)) (sc2 (iblk m c 0 ⟨b, hb⟩))
      (sc3 (iblk m c 0 ⟨b, hb⟩)) (sc4 (iblk m c 0 ⟨b, hb⟩)) (sc5 (iblk m c 0 ⟨b, hb⟩)) (iblk m c 0 t) := by
  by_cases h0 : t.val % 10 = 0
  · have hbt : (⟨b, hb⟩ : Fin cfg0.N) = t := Fin.ext (by show b = t.val; omega)
    rw [hbt, outsAt0_A m c t h0]
    dsimp only
    exact firstOut m c t h0
  · have hlt : t.val - 1 < cfg0.N := Nat.lt_of_le_of_lt (Nat.sub_le _ _) t.isLt
    obtain ⟨e0, e1, e2, e3, e4, e5⟩ := planes_eq m c (t.val - 1) hlt b hb (by omega)
    rw [outsAt0_B m c t h0]
    dsimp only
    rw [laterOut m c t h0, e0, e1, e2, e3, e4, e5]

end AnyInstance

/-! ## The result array, on the extended reals -/

variable (m : (ℓ : Loc nD τ sig) → Buf (Elt Ideal) ℓ) (ρ : Dev nD → PrngReg)

/-- The printed index maps, decided over the 160 grid points: point `t` is batch `t / 10`, channel pair `t % 10`. -/
theorem idx_facts : ∀ t : Fin cfg0.N, win0_0.index t (0 : Fin 4) = t.val / 10 ∧ win0_0.index t (1 : Fin 4) = t.val % 10
    ∧ win0_0.index t (2 : Fin 4) = 0 ∧ win0_0.index t (3 : Fin 4) = 0
    ∧ win0_1.index t (0 : Fin 4) = t.val / 10 ∧ win0_1.index t (1 : Fin 4) = t.val % 10
    ∧ win0_1.index t (2 : Fin 4) = 0 ∧ win0_1.index t (3 : Fin 4) = 0 :=
  (by decide +kernel : ∀ t : Fin grid0.N, _)

/-- The input window's block at point `t`, read at channel `j`, row `h`, column `x`: the argument array at batch
    `t / 10`, channel `2·(t % 10) + j`. -/
theorem iblk_apply (c : Dev nD) (t : Fin cfg0.N) (j : Fin 2) (h x : Row) (B : Fin 16) (k : Fin 20)
    (hB : B.val = t.val / 10) (hk : k.val = 2 * (t.val % 10) + j.val) :
    (iblk m c 0 t : Vec Ideal S1x2x512x512 .f32) (ix4 (0 : Fin 1) j h x) = V m c main_arg0 (ix4 B k h x) := by
  obtain ⟨f0, f1, f2, f3, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 4) * 1 + 1 * 0 = B.val; rw [f0]; omega
  | ⟨1, _⟩ => show win0_0.index t (1 : Fin 4) * 2 + 1 * j.val = k.val; rw [f1]; omega
  | ⟨2, _⟩ => show win0_0.index t (2 : Fin 4) * 512 + 1 * h.val = h.val; rw [f2]; omega
  | ⟨3, _⟩ => show win0_0.index t (3 : Fin 4) * 512 + 1 * x.val = x.val; rw [f3]; omega

/-- WHAT POINT `t` WRITES BACK is block `t` of the specification `G` of the argument array. -/
theorem flushed_eq (c : Dev nD) (t : Fin cfg0.N) :
    (dats m 0 c).flushed 1 t = ((cfg0.win 1).blk t).view.read (Elt Ideal) (G (V m c main_arg0)) := by
  have hN : cfg0.N = 160 := N_0
  have hb : 10 * (t.val / 10) < cfg0.N := by have := t.isLt; omega
  obtain ⟨-, -, -, -, g0, g1, g2, g3⟩ := idx_facts t
  rw [Cert.KernelIdeal.Value.flushed1, block_eq m c t (10 * (t.val / 10)) hb rfl]
  funext y
  obtain ⟨u, j, h, x, rfl⟩ : ∃ (u : Fin 1) (j : Fin 2) (h x : Row), y = ix4 u j h x := ⟨y 0, y 1, y 2, y 3, eq_ix4 y⟩
  obtain rfl : u = 0 := Subsingleton.elim _ _
  have hBlt : t.val / 10 < 16 := by have := t.isLt; omega
  have hklt : 2 * (t.val % 10) + j.val < 20 := by have := j.isLt; omega
  have hemb : ((cfg0.win 1).blk t).view.emb (ix4 (0 : Fin 1) j h x)
      = ix4 (⟨t.val / 10, hBlt⟩ : Fin 16) (⟨2 * (t.val % 10) + j.val, hklt⟩ : Fin 20) h x := by
    funext a; apply Fin.ext
    match a with
    | ⟨0, _⟩ => show win0_1.index t (0 : Fin 4) * 1 + 1 * 0 = t.val / 10; rw [g0]; omega
    | ⟨1, _⟩ => show win0_1.index t (1 : Fin 4) * 2 + 1 * j.val = 2 * (t.val % 10) + j.val; rw [g1]; omega
    | ⟨2, _⟩ => show win0_1.index t (2 : Fin 4) * 512 + 1 * h.val = h.val; rw [g2]; omega
    | ⟨3, _⟩ => show win0_1.index t (3 : Fin 4) * 512 + 1 * x.val = x.val; rw [g3]; omega
  show blockOut (F := Ideal) _ _ _ _ _ _ (iblk m c 0 t) (ix4 (0 : Fin 1) j h x)
    = G (V m c main_arg0) (((cfg0.win 1).blk t).view.emb (ix4 (0 : Fin 1) j h x))
  rw [hemb, G_apply, Cert.KernelBody.blockOut_apply]
  have c0 : Cert.KernelBody.chan (iblk m c 0 ⟨10 * (t.val / 10), hb⟩) 0
      = fun h x => V m c main_arg0 (ix4 (⟨t.val / 10, hBlt⟩ : Fin 16) (0 : Fin 20) h x) :=
    funext fun h => funext fun x => iblk_apply m c ⟨10 * (t.val / 10), hb⟩ 0 h x _ _
      (by show t.val / 10 = 10 * (t.val / 10) / 10; omega) (by show 0 = 2 * (10 * (t.val / 10) % 10) + 0; omega)
  have c1 : Cert.KernelBody.chan (iblk m c 0 ⟨10 * (t.val / 10), hb⟩) 1
      = fun h x => V m c main_arg0 (ix4 (⟨t.val / 10, hBlt⟩ : Fin 16) (1 : Fin 20) h x) :=
    funext fun h => funext fun x => iblk_apply m c ⟨10 * (t.val / 10), hb⟩ 1 h x _ _
      (by show t.val / 10 = 10 * (t.val / 10) / 10; omega) (by show 1 = 2 * (10 * (t.val / 10) % 10) + 1; omega)
  have cj : Cert.KernelBody.chan (iblk m c 0 t) j
      = fun h x => V m c main_arg0 (ix4 (⟨t.val / 10, hBlt⟩ : Fin 16) (⟨2 * (t.val % 10) + j.val, hklt⟩ : Fin 20) h x) :=
    funext fun h => funext fun x => iblk_apply m c t j h x _ _ rfl rfl
  rw [c0, c1, cj]

/-- An index of the array is in point `t`'s block iff each coordinate is in the block's range on its axis. -/
theorem mem_blk (t : Fin cfg0.N) (i : S16x20x512x512.Idx) :
    i ∈ ((cfg0.win 1).blk t).view.set ↔ ∀ a : Fin 4, win0_1.index t a * S1x2x512x512.size a ≤ (i a).val
      ∧ (i a).val < win0_1.index t a * S1x2x512x512.size a + S1x2x512x512.size a := by
  show i ∈ ((View.whole main_v0).slice (win0_1.rect t)).set ↔ _
  rw [View.set_slice_whole, Rect.mem_set_unit]
  exact Iff.rfl

/-- Every index of the array is in the block of the point of its batch and channel pair. -/
theorem cover (i : S16x20x512x512.Idx) : ∃ t : Fin cfg0.N, (cfg0.win 1).flush t = true ∧ i ∈ ((cfg0.win 1).blk t).view.set := by
  have hN : cfg0.N = 160 := N_0
  have hi0 : (i 0).val < 16 := (i 0).isLt
  have hi1 : (i 1).val < 20 := (i 1).isLt
  have hi2 : (i 2).val < 512 := (i 2).isLt
  have hi3 : (i 3).val < 512 := (i 3).isLt
  refine ⟨⟨10 * (i 0).val + (i 1).val / 2, by omega⟩, flush0_1 _, ?_⟩
  obtain ⟨-, -, -, -, g0, g1, g2, g3⟩ := idx_facts ⟨10 * (i 0).val + (i 1).val / 2, by omega⟩
  rw [mem_blk]
  intro a
  match a with
  | ⟨0, _⟩ => show win0_1.index _ (0 : Fin 4) * 1 ≤ (i 0).val ∧ (i 0).val < win0_1.index _ (0 : Fin 4) * 1 + 1; rw [g0]; dsimp only; omega
  | ⟨1, _⟩ => show win0_1.index _ (1 : Fin 4) * 2 ≤ (i 1).val ∧ (i 1).val < win0_1.index _ (1 : Fin 4) * 2 + 2; rw [g1]; dsimp only; omega
  | ⟨2, _⟩ => show win0_1.index _ (2 : Fin 4) * 512 ≤ (i 2).val ∧ (i 2).val < win0_1.index _ (2 : Fin 4) * 512 + 512; rw [g2]; omega
  | ⟨3, _⟩ => show win0_1.index _ (3 : Fin 4) * 512 ≤ (i 3).val ∧ (i 3).val < win0_1.index _ (3 : Fin 4) * 512 + 512; rw [g3]; omega

/-- THE ARRAY after the run is the specification of the argument array. -/
theorem final (c : Dev nD) : (dats m 0 c).arrAt 1 cfg0.N = G (V m c main_arg0) :=
  (dats m 0 c).arrAt_eq_of_cover 1 (G (V m c main_arg0)) (fun t _ => flushed_eq m c t) cover

/-- The kernel's run, read: the result array at the specification of the argument array, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.LibFoldReads.lean ====
/-
  Reading buffers through a straight line of host operations.

  The buffer contents after a line of operations are a fold over the operations: each operation's result at its own
  buffer is its function of its operands' contents, and at any other buffer what was there before. The tactic below
  rewrites a read of the fold, outermost operation first, until only reads of the starting contents are left; the
  inequalities of buffer references are decided. Lemmas given in the brackets are added to the rewriting set (the
  names of the operation lists to open, facts about what a region leaves, earlier reads).
-/
import Idealize.ShloMosaic.Lib.StableHlo.Run

namespace Cert.LibFoldReads

open Idealize.ShloMosaic Idealize.ShloMosaic.StableHlo

/-- Read buffers through stretches of host operations: each operation's result at its own buffer is its function of
    its operands' contents, and at any other buffer what was there. -/
syntax "fold_reads" "[" Lean.Parser.Tactic.simpLemma,* "]" : tactic
macro_rules
  | `(tactic| fold_reads [$ls,*]) =>
    `(tactic| simp (disch := decide) only [after_cons, after_nil, nullary_result', unary_result', binary_result', ternary_result',
        reshape_result', nullary_result_ne', unary_result_ne', binary_result_ne', ternary_result_ne', reshape_result_ne', $ls,*])

end Cert.LibFoldReads
-- ==== Proof.LibJoinCongr.lean ====
/-
  A two-piece concatenate depends on its pieces only through their contents.

  The side condition of a concatenate speaks of the list of the pieces' shapes, which it reads off the list of pieces;
  so a rewriting pass cannot replace a piece by an equal one inside the list without also moving the side condition.
  The shapes do not change when a piece's contents are replaced, so the same side condition serves, and the two
  concatenates are equal. Stated as a congruence rule, it lets a simplifier pass rewrite inside the two pieces.
-/
import Idealize.ShloMosaic.PureOps.ShapeOps

namespace Cert.LibJoinCongr

open Idealize.ShloMosaic

/-- Equal first pieces and equal second pieces give equal two-piece concatenates (under the same side condition). -/
@[congr] theorem concat2_congr {α : Type} {t : Shape} {a : Fin t.rank} {s₁ s₂ : Shape} {u u' : s₁.Idx → α} {v v' : s₂.Idx → α}
    (h : Shape.Concatenates (([⟨s₁, u⟩, ⟨s₂, v⟩] : List ((s : Shape) × (s.Idx → α))).map (·.1)) t a)
    (hu : u = u') (hv : v = v') :
    concatenate t a [⟨s₁, u⟩, ⟨s₂, v⟩] h = concatenate t a [⟨s₁, u'⟩, ⟨s₂, v'⟩] h := by
  subst hu hv; rfl

end Cert.LibJoinCongr
-- ==== Proof.LibStretches.lean ====
/-
  A straight line of host operations read stretch by stretch, and contents carried to a typed reference and back.

  The buffer contents after a line of operations are a fold of the operations' results over the contents it starts
  from. Cut the line in two: the contents after the whole line are the fold over the second stretch of the contents
  after the first. A long line is read this way one stretch at a time, each stretch from what the one before left, a
  buffer a stretch does not write keeping its contents.

  Inside a function the program calls, a buffer is reached through a reference that carries its tensor type; contents
  are moved to the buffer's own type along an equation of types and back along its inverse. There and back is the
  identity, whatever the reference: with the pairs removed this way, a read-back of such a function's operations
  compares with a plain term without unfolding any operation.
-/
import Idealize.ShloMosaic.Lib.StableHlo.Run

namespace Cert.LibStretches

open Idealize.ShloMosaic Idealize.ShloMosaic.StableHlo

variable {τ : Topo} {sig : RefSig} {Val : EltTy → Type}

/-- The contents after two stretches run in turn: the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and back are the contents. -/
theorem ofBuf_toBuf {T : BufTy} (x : TRef sig T) (v : T.Contents Val) : x.ofBuf (x.toBuf v) = v := by
  obtain ⟨r, h, _, _⟩ := x
  subst h
  rfl

/-- Contents carried from a typed reference's buffer and back to it are the contents. -/
theorem toBuf_ofBuf {T : BufTy} (x : TRef sig T) (v : x.ref.ty.Contents Val) : x.toBuf (x.ofBuf v) = v := by
  obtain ⟨r, h, _, _⟩ := x
  subst h
  rfl

end Cert.LibStretches
-- ==== Proof.RefRun.lean ====
/-
  The reference program's run, read stretch by stretch.

  The program is a straight line of 110 host operations. Its buffer contents at the end are the fold of the operations'
  results over the contents at launch. The line is cut into four stretches, each ending where a value is ready that
  several later operations read: the move-up bits of the first pass, the array after the first pass, the move-up bits
  of the second pass, the result. Each stretch's closing buffer is read as its stage (a function of the argument array)
  from the stages the stretch starts from, and a buffer a stretch does not write keeps its contents; chained, the
  result buffer after the whole line is the last stage of the argument array.
-/
import proofs.«112188_j30296699306445_2_alg».proof.Proof.RefOps
import proofs.«112188_j30296699306445_2_alg».proof.Proof.RefRead
import proofs.«112188_j30296699306445_2_alg».proof.Proof.LibFoldReads
import proofs.«112188_j30296699306445_2_alg».proof.Proof.LibJoinCongr
import proofs.«112188_j30296699306445_2_alg».proof.Proof.LibStretches

noncomputable section

namespace Cert.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.LibFoldReads Cert.LibStretches

variable {F : FTy → Type} [FloatOps F]

/-- Operations %0 to %18: the first pass's move-up bits. -/
abbrev s0 : List (HloOp τ sig (Elt F)) :=
  [ unary main_arg0 main_v0 ((extractStridedSlice S16x1x512x512 ![0, 1, 0, 0] · slices_S16x20x512x512_S16x1x512x512_0_1_0_0) : (⟨S16x20x512x512, .f32⟩ : BufTy).Contents (Elt F) → (⟨S16x1x512x512, .f32⟩ : BufTy).Contents (Elt F)),
    unary main_arg0 main_v1 ((extractStridedSlice S16x1x512x512 ![0, 0, 0, 0] · slices_S16x20x512x512_S16x1x512x512_0_0_0_0) : (⟨S16x20x512x512, .f32⟩ : BufTy).Contents (Elt F) → (⟨S16x1x512x512, .f32⟩ : BufTy).Contents (Elt F)),
    nullary main_cst (constant S_ .f32 0x40400000#32),
    unary main_cst main_v2 (broadcastInDim S16x1x512x512 ![] bcast_S_S16x1x512x512 : (⟨S_, .f32⟩ : BufTy).Contents (Elt F) → (⟨S16x1x512x512, .f32⟩ : BufTy).Contents (Elt F)),
    binary main_v1 main_v2 main_v3 (cmpf .oeq : (⟨S16x1x512x512, .f32⟩ : BufTy).Contents (Elt F) → (⟨S16x1x512x512, .f32⟩ : BufTy).Contents (Elt F) → (⟨S16x1x512x512, .i1⟩ : BufTy).Contents (Elt F)),
    TRef.unary (TRef.of (T := ⟨S16x1x512x512, .f32⟩) main_v0) (TRef.of (T := ⟨S16x1x512x1, .f32⟩) main_call0_v0) (extractStridedSlice S16x1x512x1 ![0, 0, 0, 511] · slices_S16x1x512x512_S16x1x512x1_0_0_0_511),
    TRef.unary (TRef.of (T := ⟨S16x1x512x512, .f32⟩) main_v0) (TRef.of (T := ⟨S16x1x512x511, .f32⟩) main_call0_v1) (extractStridedSlice S16x1x512x511 ![0, 0, 0, 0] · slices_S16x1x512x512_S16x1x512x511_0_0_0_0),
    TRef.binary (TRef.of (T := ⟨S16x1x512x1, .f32⟩) main_call0_v0) (TRef.of (T := ⟨S16x1x512x511, .f32⟩) main_call0_v1) (TRef.of (T := ⟨S16x1x512x512, .f32⟩) main_v4) (fun a b => concatenate S16x1x512x512 3 [⟨S16x1x512x1, a⟩, ⟨S16x1x512x511, b⟩] concatenates_S16x1x512x1_S16x1x512x511_S16x1x512x512_d3),
    TRef.unary (TRef.of (T := ⟨S16x1x512x512, .f32⟩) main_v0) (TRef.of (T := ⟨S16x1x1x512, .f32⟩) main_call1_v0) (extractStridedSlice S16x1x1x512 ![0, 0, 511, 0] · slices_S16x1x512x512_S16x1x1x512_0_0_511_0),
    TRef.unary (TRef.of (T := ⟨S16x1x512x512, .f32⟩) main_v0) (TRef.of (T := ⟨S16x1x511x512, .f32⟩) main_call1_v1) (extractStridedSlice S16x1x511x512 ![0, 0, 0, 0] · slices_S16x1x512x512_S16x1x511x512_0_0_0_0),
    TRef.binary (TRef.of (T := ⟨S16x1x1x512, .f32⟩) main_call1_v0) (TRef.of (T := ⟨S16x1x511x512, .f32⟩) main_call1_v1) (TRef.of (T := ⟨S16x1x512x512, .f32⟩) main_v5) (fun a b => concatenate S16x1x512x512 2 [⟨S16x1x1x512, a⟩, ⟨S16x1x511x512, b⟩] concatenates_S16x1x1x512_S16x1x511x512_S16x1x512x512_d2),
    TRef.unary (TRef.of (T := ⟨S16x1x512x512, .f32⟩) main_v5) (TRef.of (T := ⟨S16x1x512x1, .f32⟩) main_call2_v0) (extractStridedSlice S16x1x512x1 ![0, 0, 0, 511] · slices_S16x1x512x512_S16x1x512x1_0_0_0_511),
    TRef.unary (TRef.of (T := ⟨S16x1x512x512, .f32⟩) main_v5) (TRef.of (T := ⟨S16x1x512x511, .f32⟩) main_call2_v1) (extractStridedSlice S16x1x512x511 ![0, 0, 0, 0] · slices_S16x1x512x512_S16x1x512x511_0_0_0_0),
    TRef.binary (TRef.of (T := ⟨S16x1x512x1, .f32⟩) main_call2_v0) (TRef.of (T := ⟨S16x1x512x511, .f32⟩) main_call2_v1) (TRef.of (T := ⟨S16x1x512x512, .f32⟩) main_v6) (fun a b => concatenate S16x1x512x512 3 [⟨S16x1x512x1, a⟩, ⟨S16x1x512x511, b⟩] concatenates_S16x1x512x1_S16x1x512x511_S16x1x512x512_d3),
    binary main_v4 main_v0 main_v7 (subf : (⟨S16x1x512x512, .f32⟩ : BufTy).Contents (Elt F) → (⟨S16x1x512x512, .f32⟩ : BufTy).Contents (Elt F) → (⟨S16x1x512x512, .f32⟩ : BufTy).Contents (Elt F)),
    nullary main_cst_0 (constant S_ .f32 0x00000000#32),
    unary main_cst_0 main_v8 (broadcastInDim S16x1x512x512 ![] bcast_S_S16x1x512x512 : (⟨S_, .f32⟩ : BufTy).Contents (Elt F) → (⟨S16x1x512x512, .f32⟩ : BufTy).Contents (Elt F)),
    binary main_v7 main_v8 main_v9 (cmpf .oge : (⟨S16x1x512x512, .f32⟩ : BufTy).Contents (Elt F) → (⟨S16x1x512x512, .f32⟩ : BufTy).Contents (Elt F) → (⟨S16x1x512x512, .i1⟩ : BufTy).Contents (Elt F)),
    binary main_v3 main_v9 main_v10 (andi : (⟨S16x1x512x512, .i1⟩ : BufTy).Contents (Elt F) → (⟨S16x1x512x512, .i1⟩ : BufTy).Contents (Elt F) → (⟨S16x1x512x512, .i1⟩ : BufTy).Contents (Elt F)),
    binary main_v5 main_v0 main_v11 (subf : (⟨S16x1x512x512, .f32⟩ : BufTy).Contents (Elt F) → (⟨S16x1x512x512, .f32⟩ : BufTy).Contents (Elt F) → (⟨S16x1x512x512, .f32⟩ : BufTy).Contents (Elt F)),
    nullary main_cst_1 (constant S_ .f32 0x00000000#32),
    unary main_cst_1 main_v12 (broadcastInDim S16x1x512x512 ![] bcast_S_S16x1x512x512 : (⟨S_, .f32⟩ : BufTy).Contents (Elt F) → (⟨S16x1x512x512, .f32⟩ : BufTy).Contents (Elt F)),
    binary main_v11 main_v12 main_v13 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v10 main_v13 main_v14 (andi : (⟨S16x1x512x512, .i1⟩ : BufTy).Contents (Elt F) → (⟨S16x1x512x512, .i1⟩ : BufTy).Contents (Elt F) → (⟨S16x1x512x512, .i1⟩ : BufTy).Contents (Elt F)),
    binary main_v6 main_v0 main_v15 (subf : (⟨S16x1x512x512, .f32⟩ : BufTy).Contents (Elt F) → (⟨S16x1x512x512, .f32⟩ : BufTy).Contents (Elt F) → (⟨S16x1x512x512, .f32⟩ : BufTy).Contents (Elt F)),
    nullary main_cst_2 (constant S_ .f32 0x00000000#32),
    unary main_cst_2 main_v16 (broadcastInDim S16x1x512x512 ![] bcast_S_S16x1x512x512 : (⟨S_, .f32⟩ : BufTy).Contents (Elt F) → (⟨S16x1x512x512, .f32⟩ : BufTy).Contents (Elt F)),
    binary main_v15 main_v16 main_v17 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v14 main_v17 main_v18 (andi : (⟨S16x1x512x512, .i1⟩ : BufTy).Contents (Elt F) → (⟨S16x1x512x512, .i1⟩ : BufTy).Contents (Elt F) → (⟨S16x1x512x512, .i1⟩ : BufTy).Contents (Elt F)) ]

/-- Operations %19 to %36: the array after the first pass. -/
abbrev s1 : List (HloOp τ sig (Elt F)) :=
  [ TRef.unary (TRef.of (T := ⟨S16x1x512x512, .i1⟩) main_v18) (TRef.of (T := ⟨S16x1x511x512, .i1⟩) main_call3_v0) (extractStridedSlice S16x1x511x512 ![0, 0, 1, 0] · slices_S16x1x512x512_S16x1x511x512_0_0_1_0),
    TRef.unary (TRef.of (T := ⟨S16x1x512x512, .i1⟩) main_v18) (TRef.of (T := ⟨S16x1x1x512, .i1⟩) main_call3_v1) (extractStridedSlice S16x1x1x512 ![0, 0, 0, 0] · slices_S16x1x512x512_S16x1x1x512_0_0_0_0),
    TRef.binary (TRef.of (T := ⟨S16x1x511x512, .i1⟩) main_call3_v0) (TRef.of (T := ⟨S16x1x1x512, .i1⟩) main_call3_v1) (TRef.of (T := ⟨S16x1x512x512, .i1⟩) main_v19) (fun a b => concatenate S16x1x512x512 2 [⟨S16x1x511x512, a⟩, ⟨S16x1x1x512, b⟩] concatenates_S16x1x511x512_S16x1x1x512_S16x1x512x512_d2),
    TRef.unary (TRef.of (T := ⟨S16x20x512x512, .f32⟩) main_arg0) (TRef.of (T := ⟨S16x20x1x512, .f32⟩) main_call4_v0) (extractStridedSlice S16x20x1x512 ![0, 0, 511, 0] · slices_S16x20x512x512_S16x20x1x512_0_0_511_0),
    TRef.unary (TRef.of (T := ⟨S16x20x512x512, .f32⟩) main_arg0) (TRef.of (T := ⟨S16x20x511x512, .f32⟩) main_call4_v1) (extractStridedSlice S16x20x511x512 ![0, 0, 0, 0] · slices_S16x20x512x512_S16x20x511x512_0_0_0_0),
    TRef.binary (TRef.of (T := ⟨S16x20x1x512, .f32⟩) main_call4_v0) (TRef.of (T := ⟨S16x20x511x512, .f32⟩) main_call4_v1) (TRef.of (T := ⟨S16x20x512x512, .f32⟩) main_v20) (fun a b => concatenate S16x20x512x512 2 [⟨S16x20x1x512, a⟩, ⟨S16x20x511x512, b⟩] concatenates_S16x20x1x512_S16x20x511x512_S16x20x512x512_d2),
    TRef.unary (TRef.of (T := ⟨S16x20x512x512, .f32⟩) main_arg0) (TRef.of (T := ⟨S16x20x511x512, .f32⟩) main_call5_v0) (extractStridedSlice S16x20x511x512 ![0, 0, 1, 0] · slices_S16x20x512x512_S16x20x511x512_0_0_1_0),
    TRef.unary (TRef.of (T := ⟨S16x20x512x512, .f32⟩) main_arg0) (TRef.of (T := ⟨S16x20x1x512, .f32⟩) main_call5_v1) (extractStridedSlice S16x20x1x512 ![0, 0, 0, 0] · slices_S16x20x512x512_S16x20x1x512_0_0_0_0),
    TRef.binary (TRef.of (T := ⟨S16x20x511x512, .f32⟩) main_call5_v0) (TRef.of (T := ⟨S16x20x1x512, .f32⟩) main_call5_v1) (TRef.of (T := ⟨S16x20x512x512, .f32⟩) main_v21) (fun a b => concatenate S16x20x512x512 2 [⟨S16x20x511x512, a⟩, ⟨S16x20x1x512, b⟩] concatenates_S16x20x511x512_S16x20x1x512_S16x20x512x512_d2),
    unary main_v18 main_v22 (uitofp .f32 : (⟨S16x1x512x512, .i1⟩ : BufTy).Contents (Elt F) → (⟨S16x1x512x512, .f32⟩ : BufTy).Contents (Elt F)),
    unary main_v19 main_v23 (uitofp .f32 : (⟨S16x1x512x512, .i1⟩ : BufTy).Contents (Elt F) → (⟨S16x1x512x512, .f32⟩ : BufTy).Contents (Elt F)),
    nullary main_cst_3 (constant S_ .f32 0x3F800000#32),
    unary main_cst_3 main_v24 (broadcastInDim S16x1x512x512 ![] bcast_S_S16x1x512x512 : (⟨S_, .f32⟩ : BufTy).Contents (Elt F) → (⟨S16x1x512x512, .f32⟩ : BufTy).Contents (Elt F)),
    binary main_v24 main_v22 main_v25 (subf : (⟨S16x1x512x512, .f32⟩ : BufTy).Contents (Elt F) → (⟨S16x1x512x512, .f32⟩ : BufTy).Contents (Elt F) → (⟨S16x1x512x512, .f32⟩ : BufTy).Contents (Elt F)),
    nullary main_cst_4 (constant S_ .f32 0x3F800000#32),
    unary main_cst_4 main_v26 (broadcastInDim S16x1x512x512 ![] bcast_S_S16x1x512x512 : (⟨S_, .f32⟩ : BufTy).Contents (Elt F) → (⟨S16x1x512x512, .f32⟩ : BufTy).Contents (Elt F)),
    binary main_v26 main_v23 main_v27 (subf : (⟨S16x1x512x512, .f32⟩ : BufTy).Contents (Elt F) → (⟨S16x1x512x512, .f32⟩ : BufTy).Contents (Elt F) → (⟨S16x1x512x512, .f32⟩ : BufTy).Contents (Elt F)),
    binary main_v25 main_v27 main_v28 (mulf : (⟨S16x1x512x512, .f32⟩ : BufTy).Contents (Elt F) → (⟨S16x1x512x512, .f32⟩ : BufTy).Contents (Elt F) → (⟨S16x1x512x512, .f32⟩ : BufTy).Contents (Elt F)),
    unary main_v28 main_v29 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v29 main_arg0 main_v30 (mulf : (⟨S16x20x512x512, .f32⟩ : BufTy).Contents (Elt F) → (⟨S16x20x512x512, .f32⟩ : BufTy).Contents (Elt F) → (⟨S16x20x512x512, .f32⟩ : BufTy).Contents (Elt F)),
    unary main_v22 main_v31 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v31 main_v20 main_v32 (mulf : (⟨S16x20x512x512, .f32⟩ : BufTy).Contents (Elt F) → (⟨S16x20x512x512, .f32⟩ : BufTy).Contents (Elt F) → (⟨S16x20x512x512, .f32⟩ : BufTy).Contents (Elt F)),
    binary main_v30 main_v32 main_v33 (addf : (⟨S16x20x512x512, .f32⟩ : BufTy).Contents (Elt F) → (⟨S16x20x512x512, .f32⟩ : BufTy).Contents (Elt F) → (⟨S16x20x512x512, .f32⟩ : BufTy).Contents (Elt F)),
    unary main_v23 main_v34 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v34 main_v21 main_v35 (mulf : (⟨S16x20x512x512, .f32⟩ : BufTy).Contents (Elt F) → (⟨S16x20x512x512, .f32⟩ : BufTy).Contents (Elt F) → (⟨S16x20x512x512, .f32⟩ : BufTy).Contents (Elt F)),
    binary main_v33 main_v35 main_v36 (addf : (⟨S16x20x512x512, .f32⟩ : BufTy).Contents (Elt F) → (⟨S16x20x512x512, .f32⟩ : BufTy).Contents (Elt F) → (⟨S16x20x512x512, .f32⟩ : BufTy).Contents (Elt F)) ]

/-- Operations %37 to %55: the second pass's move-up bits. -/
abbrev s2 : List (HloOp τ sig (Elt F)) :=
  [ unary main_v36 main_v37 ((extractStridedSlice S16x1x512x512 ![0, 1, 0, 0] · slices_S16x20x512x512_S16x1x512x512_0_1_0_0) : (⟨S16x20x512x512, .f32⟩ : BufTy).Contents (Elt F) → (⟨S16x1x512x512, .f32⟩ : BufTy).Contents (Elt F)),
    unary main_v36 main_v38 ((extractStridedSlice S16x1x512x512 ![0, 0, 0, 0] · slices_S16x20x512x512_S16x1x512x512_0_0_0_0) : (⟨S16x20x512x512, .f32⟩ : BufTy).Contents (Elt F) → (⟨S16x1x512x512, .f32⟩ : BufTy).Contents (Elt F)),
    nullary main_cst_5 (constant S_ .f32 0x40400000#32),
    unary main_cst_5 main_v39 (broadcastInDim S16x1x512x512 ![] bcast_S_S16x1x512x512 : (⟨S_, .f32⟩ : BufTy).Contents (Elt F) → (⟨S16x1x512x512, .f32⟩ : BufTy).Contents (Elt F)),
    binary main_v38 main_v39 main_v40 (cmpf .oeq : (⟨S16x1x512x512, .f32⟩ : BufTy).Contents (Elt F) → (⟨S16x1x512x512, .f32⟩ : BufTy).Contents (Elt F) → (⟨S16x1x512x512, .i1⟩ : BufTy).Contents (Elt F)),
    TRef.unary (TRef.of (T := ⟨S16x1x512x512, .f32⟩) main_v37) (TRef.of (T := ⟨S16x1x512x511, .f32⟩) main_call6_v0) (extractStridedSlice S16x1x512x511 ![0, 0, 0, 1] · slices_S16x1x512x512_S16x1x512x511_0_0_0_1),
    TRef.unary (TRef.of (T := ⟨S16x1x512x512, .f32⟩) main_v37) (TRef.of (T := ⟨S16x1x512x1, .f32⟩) main_call6_v1) (extractStridedSlice S16x1x512x1 ![0, 0, 0, 0] · slices_S16x1x512x512_S16x1x512x1_0_0_0_0),
    TRef.binary (TRef.of (T := ⟨S16x1x512x511, .f32⟩) main_call6_v0) (TRef.of (T := ⟨S16x1x512x1, .f32⟩) main_call6_v1) (TRef.of (T := ⟨S16x1x512x512, .f32⟩) main_v41) (fun a b => concatenate S16x1x512x512 3 [⟨S16x1x512x511, a⟩, ⟨S16x1x512x1, b⟩] concatenates_S16x1x512x511_S16x1x512x1_S16x1x512x512_d3),
    TRef.unary (TRef.of (T := ⟨S16x1x512x512, .f32⟩) main_v37) (TRef.of (T := ⟨S16x1x1x512, .f32⟩) main_call7_v0) (extractStridedSlice S16x1x1x512 ![0, 0, 511, 0] · slices_S16x1x512x512_S16x1x1x512_0_0_511_0),
    TRef.unary (TRef.of (T := ⟨S16x1x512x512, .f32⟩) main_v37) (TRef.of (T := ⟨S16x1x511x512, .f32⟩) main_call7_v1) (extractStridedSlice S16x1x511x512 ![0, 0, 0, 0] · slices_S16x1x512x512_S16x1x511x512_0_0_0_0),
    TRef.binary (TRef.of (T := ⟨S16x1x1x512, .f32⟩) main_call7_v0) (TRef.of (T := ⟨S16x1x511x512, .f32⟩) main_call7_v1) (TRef.of (T := ⟨S16x1x512x512, .f32⟩) main_v42) (fun a b => concatenate S16x1x512x512 2 [⟨S16x1x1x512, a⟩, ⟨S16x1x511x512, b⟩] concatenates_S16x1x1x512_S16x1x511x512_S16x1x512x512_d2),
    TRef.unary (TRef.of (T := ⟨S16x1x512x512, .f32⟩) main_v42) (TRef.of (T := ⟨S16x1x512x511, .f32⟩) main_call8_v0) (extractStridedSlice S16x1x512x511 ![0, 0, 0, 1] · slices_S16x1x512x512_S16x1x512x511_0_0_0_1),
    TRef.unary (TRef.of (T := ⟨S16x1x512x512, .f32⟩) main_v42) (TRef.of (T := ⟨S16x1x512x1, .f32⟩) main_call8_v1) (extractStridedSlice S16x1x512x1 ![0, 0, 0, 0] · slices_S16x1x512x512_S16x1x512x1_0_0_0_0),
    TRef.binary (TRef.of (T := ⟨S16x1x512x511, .f32⟩) main_call8_v0) (TRef.of (T := ⟨S16x1x512x1, .f32⟩) main_call8_v1) (TRef.of (T := ⟨S16x1x512x512, .f32⟩) main_v43) (fun a b => concatenate S16x1x512x512 3 [⟨S16x1x512x511, a⟩, ⟨S16x1x512x1, b⟩] concatenates_S16x1x512x511_S16x1x512x1_S16x1x512x512_d3),
    binary main_v41 main_v37 main_v44 (subf : (⟨S16x1x512x512, .f32⟩ : BufTy).Contents (Elt F) → (⟨S16x1x512x512, .f32⟩ : BufTy).Contents (Elt F) → (⟨S16x1x512x512, .f32⟩ : BufTy).Contents (Elt F)),
    nullary main_cst_6 (constant S_ .f32 0x00000000#32),
    unary main_cst_6 main_v45 (broadcastInDim S16x1x512x512 ![] bcast_S_S16x1x512x512 : (⟨S_, .f32⟩ : BufTy).Contents (Elt F) → (⟨S16x1x512x512, .f32⟩ : BufTy).Contents (Elt F)),
    binary main_v44 main_v45 main_v46 (cmpf .oge : (⟨S16x1x512x512, .f32⟩ : BufTy).Contents (Elt F) → (⟨S16x1x512x512, .f32⟩ : BufTy).Contents (Elt F) → (⟨S16x1x512x512, .i1⟩ : BufTy).Contents (Elt F)),
    binary main_v40 main_v46 main_v47 (andi : (⟨S16x1x512x512, .i1⟩ : BufTy).Contents (Elt F) → (⟨S16x1x512x512, .i1⟩ : BufTy).Contents (Elt F) → (⟨S16x1x512x512, .i1⟩ : BufTy).Contents (Elt F)),
    binary main_v42 main_v37 main_v48 (subf : (⟨S16x1x512x512, .f32⟩ : BufTy).Contents (Elt F) → (⟨S16x1x512x512, .f32⟩ : BufTy).Contents (Elt F) → (⟨S16x1x512x512, .f32⟩ : BufTy).Contents (Elt F)),
    nullary main_cst_7 (constant S_ .f32 0x00000000#32),
    unary main_cst_7 main_v49 (broadcastInDim S16x1x512x512 ![] bcast_S_S16x1x512x512 : (⟨S_, .f32⟩ : BufTy).Contents (Elt F) → (⟨S16x1x512x512, .f32⟩ : BufTy).Contents (Elt F)),
    binary main_v48 main_v49 main_v50 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v47 main_v50 main_v51 (andi : (⟨S16x1x512x512, .i1⟩ : BufTy).Contents (Elt F) → (⟨S16x1x512x512, .i1⟩ : BufTy).Contents (Elt F) → (⟨S16x1x512x512, .i1⟩ : BufTy).Contents (Elt F)),
    binary main_v43 main_v37 main_v52 (subf : (⟨S16x1x512x512, .f32⟩ : BufTy).Contents (Elt F) → (⟨S16x1x512x512, .f32⟩ : BufTy).Contents (Elt F) → (⟨S16x1x512x512, .f32⟩ : BufTy).Contents (Elt F)),
    nullary main_cst_8 (constant S_ .f32 0x00000000#32),
    unary main_cst_8 main_v53 (broadcastInDim S16x1x512x512 ![] bcast_S_S16x1x512x512 : (⟨S_, .f32⟩ : BufTy).Contents (Elt F) → (⟨S16x1x512x512, .f32⟩ : BufTy).Contents (Elt F)),
    binary main_v52 main_v53 main_v54 (cmpf .olt : (⟨S16x1x512x512, .f32⟩ : BufTy).Contents (Elt F) → (⟨S16x1x512x512, .f32⟩ : BufTy).Contents (Elt F) → (⟨S16x1x512x512, .i1⟩ : BufTy).Contents (Elt F)),
    binary main_v51 main_v54 main_v55 (andi : (⟨S16x1x512x512, .i1⟩ : BufTy).Contents (Elt F) → (⟨S16x1x512x512, .i1⟩ : BufTy).Contents (Elt F) → (⟨S16x1x512x512, .i1⟩ : BufTy).Contents (Elt F)) ]

/-- Operations %56 to %73: the result. -/
abbrev s3 : List (HloOp τ sig (Elt F)) :=
  [ TRef.unary (TRef.of (T := ⟨S16x1x512x512, .i1⟩) main_v55) (TRef.of (T := ⟨S16x1x511x512, .i1⟩) main_call9_v0) (extractStridedSlice S16x1x511x512 ![0, 0, 1, 0] · slices_S16x1x512x512_S16x1x511x512_0_0_1_0),
    TRef.unary (TRef.of (T := ⟨S16x1x512x512, .i1⟩) main_v55) (TRef.of (T := ⟨S16x1x1x512, .i1⟩) main_call9_v1) (extractStridedSlice S16x1x1x512 ![0, 0, 0, 0] · slices_S16x1x512x512_S16x1x1x512_0_0_0_0),
    TRef.binary (TRef.of (T := ⟨S16x1x511x512, .i1⟩) main_call9_v0) (TRef.of (T := ⟨S16x1x1x512, .i1⟩) main_call9_v1) (TRef.of (T := ⟨S16x1x512x512, .i1⟩) main_v56) (fun a b => concatenate S16x1x512x512 2 [⟨S16x1x511x512, a⟩, ⟨S16x1x1x512, b⟩] concatenates_S16x1x511x512_S16x1x1x512_S16x1x512x512_d2),
    TRef.unary (TRef.of (T := ⟨S16x20x512x512, .f32⟩) main_v36) (TRef.of (T := ⟨S16x20x1x512, .f32⟩) main_call10_v0) (extractStridedSlice S16x20x1x512 ![0, 0, 511, 0] · slices_S16x20x512x512_S16x20x1x512_0_0_511_0),
    TRef.unary (TRef.of (T := ⟨S16x20x512x512, .f32⟩) main_v36) (TRef.of (T := ⟨S16x20x511x512, .f32⟩) main_call10_v1) (extractStridedSlice S16x20x511x512 ![0, 0, 0, 0] · slices_S16x20x512x512_S16x20x511x512_0_0_0_0),
    TRef.binary (TRef.of (T := ⟨S16x20x1x512, .f32⟩) main_call10_v0) (TRef.of (T := ⟨S16x20x511x512, .f32⟩) main_call10_v1) (TRef.of (T := ⟨S16x20x512x512, .f32⟩) main_v57) (fun a b => concatenate S16x20x512x512 2 [⟨S16x20x1x512, a⟩, ⟨S16x20x511x512, b⟩] concatenates_S16x20x1x512_S16x20x511x512_S16x20x512x512_d2),
    TRef.unary (TRef.of (T := ⟨S16x20x512x512, .f32⟩) main_v36) (TRef.of (T := ⟨S16x20x511x512, .f32⟩) main_call11_v0) (extractStridedSlice S16x20x511x512 ![0, 0, 1, 0] · slices_S16x20x512x512_S16x20x511x512_0_0_1_0),
    TRef.unary (TRef.of (T := ⟨S16x20x512x512, .f32⟩) main_v36) (TRef.of (T := ⟨S16x20x1x512, .f32⟩) main_call11_v1) (extractStridedSlice S16x20x1x512 ![0, 0, 0, 0] · slices_S16x20x512x512_S16x20x1x512_0_0_0_0),
    TRef.binary (TRef.of (T := ⟨S16x20x511x512, .f32⟩) main_call11_v0) (TRef.of (T := ⟨S16x20x1x512, .f32⟩) main_call11_v1) (TRef.of (T := ⟨S16x20x512x512, .f32⟩) main_v58) (fun a b => concatenate S16x20x512x512 2 [⟨S16x20x511x512, a⟩, ⟨S16x20x1x512, b⟩] concatenates_S16x20x511x512_S16x20x1x512_S16x20x512x512_d2),
    unary main_v55 main_v59 (uitofp .f32 : (⟨S16x1x512x512, .i1⟩ : BufTy).Contents (Elt F) → (⟨S16x1x512x512, .f32⟩ : BufTy).Contents (Elt F)),
    unary main_v56 main_v60 (uitofp .f32 : (⟨S16x1x512x512, .i1⟩ : BufTy).Contents (Elt F) → (⟨S16x1x512x512, .f32⟩ : BufTy).Contents (Elt F)),
    nullary main_cst_9 (constant S_ .f32 0x3F800000#32),
    unary main_cst_9 main_v61 (broadcastInDim S16x1x512x512 ![] bcast_S_S16x1x512x512 : (⟨S_, .f32⟩ : BufTy).Contents (Elt F) → (⟨S16x1x512x512, .f32⟩ : BufTy).Contents (Elt F)),
    binary main_v61 main_v59 main_v62 (subf : (⟨S16x1x512x512, .f32⟩ : BufTy).Contents (Elt F) → (⟨S16x1x512x512, .f32⟩ : BufTy).Contents (Elt F) → (⟨S16x1x512x512, .f32⟩ : BufTy).Contents (Elt F)),
    nullary main_cst_10 (constant S_ .f32 0x3F800000#32),
    unary main_cst_10 main_v63 (broadcastInDim S16x1x512x512 ![] bcast_S_S16x1x512x512 : (⟨S_, .f32⟩ : BufTy).Contents (Elt F) → (⟨S16x1x512x512, .f32⟩ : BufTy).Contents (Elt F)),
    binary main_v63 main_v60 main_v64 (subf : (⟨S16x1x512x512, .f32⟩ : BufTy).Contents (Elt F) → (⟨S16x1x512x512, .f32⟩ : BufTy).Contents (Elt F) → (⟨S16x1x512x512, .f32⟩ : BufTy).Contents (Elt F)),
    binary main_v62 main_v64 main_v65 (mulf : (⟨S16x1x512x512, .f32⟩ : BufTy).Contents (Elt F) → (⟨S16x1x512x512, .f32⟩ : BufTy).Contents (Elt F) → (⟨S16x1x512x512, .f32⟩ : BufTy).Contents (Elt F)),
    unary main_v65 main_v66 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v66 main_v36 main_v67 (mulf : (⟨S16x20x512x512, .f32⟩ : BufTy).Contents (Elt F) → (⟨S16x20x512x512, .f32⟩ : BufTy).Contents (Elt F) → (⟨S16x20x512x512, .f32⟩ : BufTy).Contents (Elt F)),
    unary main_v59 main_v68 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v68 main_v57 main_v69 (mulf : (⟨S16x20x512x512, .f32⟩ : BufTy).Contents (Elt F) → (⟨S16x20x512x512, .f32⟩ : BufTy).Contents (Elt F) → (⟨S16x20x512x512, .f32⟩ : BufTy).Contents (Elt F)),
    binary main_v67 main_v69 main_v70 (addf : (⟨S16x20x512x512, .f32⟩ : BufTy).Contents (Elt F) → (⟨S16x20x512x512, .f32⟩ : BufTy).Contents (Elt F) → (⟨S16x20x512x512, .f32⟩ : BufTy).Contents (Elt F)),
    unary main_v60 main_v71 (broadcastInDim S16x20x512x512 ![0, 1, 2, 3] bcast_S16x1x512x512_S16x20x512x512_0_1_2_3 : (⟨S16x1x512x512, .f32⟩ : BufTy).Contents (Elt F) → (⟨S16x20x512x512, .f32⟩ : BufTy).Contents (Elt F)),
    binary main_v71 main_v58 main_v72 (mulf : (⟨S16x20x512x512, .f32⟩ : BufTy).Contents (Elt F) → (⟨S16x20x512x512, .f32⟩ : BufTy).Contents (Elt F) → (⟨S16x20x512x512, .f32⟩ : BufTy).Contents (Elt F)),
    binary main_v70 main_v72 main_v73 (addf : (⟨S16x20x512x512, .f32⟩ : BufTy).Contents (Elt F) → (⟨S16x20x512x512, .f32⟩ : BufTy).Contents (Elt F) → (⟨S16x20x512x512, .f32⟩ : BufTy).Contents (Elt F)) ]

/-- The line is the four stretches in turn. -/
theorem ops_eq : (ops : List (HloOp τ sig (Elt F))) = s0 ++ (s1 ++ (s2 ++ s3)) := rfl

variable (V : Valuation τ sig (Elt F))

/-! ## What each stretch leaves -/

/-- After the first stretch the bits buffer holds the first pass's move-up bits of the argument array. -/
theorem s0_v18 : after s0 V (Proc.devRef .tc main_v18) = val_main_v18 (F := F) (V (Proc.devRef .tc main_arg0)) := by
  fold_reads [s0, ofBuf_toBuf]
  rfl

theorem s0_arg0 : after s0 V (Proc.devRef .tc main_arg0) = V (Proc.devRef .tc main_arg0) := by
  fold_reads [s0]

/-- From those bits the second stretch leaves the array after the first pass. -/
theorem s1_v36 (h18 : V (Proc.devRef .tc main_v18) = val_main_v18 (F := F) (V (Proc.devRef .tc main_arg0))) :
    after s1 V (Proc.devRef .tc main_v36) = val_main_v36 (F := F) (V (Proc.devRef .tc main_arg0)) := by
  fold_reads [s1, ofBuf_toBuf, h18]
  rfl

theorem s1_arg0 : after s1 V (Proc.devRef .tc main_arg0) = V (Proc.devRef .tc main_arg0) := by
  fold_reads [s1]

/-- From that array the third stretch leaves the second pass's move-up bits, -/
theorem s2_v55 (h36 : V (Proc.devRef .tc main_v36) = val_main_v36 (F := F) (V (Proc.devRef .tc main_arg0))) :
    after s2 V (Proc.devRef .tc main_v55) = val_main_v55 (F := F) (V (Proc.devRef .tc main_arg0)) := by
  fold_reads [s2, ofBuf_toBuf, h36]
  rfl

/-- and keeps the array and the argument. -/
theorem s2_v36 : after s2 V (Proc.devRef .tc main_v36) = V (Proc.devRef .tc main_v36) := by
  fold_reads [s2]

theorem s2_arg0 : after s2 V (Proc.devRef .tc main_arg0) = V (Proc.devRef .tc main_arg0) := by
  fold_reads [s2]

/-- From the array after the first pass and the second pass's bits the last stretch leaves the result. -/
theorem s3_v73 (h36 : V (Proc.devRef .tc main_v36) = val_main_v36 (F := F) (V (Proc.devRef .tc main_arg0)))
    (h55 : V (Proc.devRef .tc main_v55) = val_main_v55 (F := F) (V (Proc.devRef .tc main_arg0))) :
    after s3 V (Proc.devRef .tc main_v73) = val_main_v73 (F := F) (V (Proc.devRef .tc main_arg0)) := by
  fold_reads [s3, ofBuf_toBuf, h36, h55]
  rfl

/-! ## The whole line -/

/-- The result buffer after the whole line is the last stage of the argument array. -/
theorem result_eq : after ops V (Proc.devRef .tc main_v73) = val_main_v73 (F := F) (V (Proc.devRef .tc main_arg0)) := by
  rw [ops_eq, StableHlo.after_append, StableHlo.after_append, StableHlo.after_append]
  have a0 := s0_arg0 V
  have b18 := (s0_v18 V).trans (congrArg (val_main_v18 (F := F)) a0.symm)
  have a1 := s1_arg0 (after s0 V)
  have b36 := (s1_v36 (after s0 V) b18).trans (congrArg (val_main_v36 (F := F)) a1.symm)
  have a2 := s2_arg0 (after s1 (after s0 V))
  have b55 := (s2_v55 (after s1 (after s0 V)) b36).trans (congrArg (val_main_v55 (F := F)) a2.symm)
  have c36 := (s2_v36 (after s1 (after s0 V))).trans (b36.trans (congrArg (val_main_v36 (F := F)) a2.symm))
  exact (s3_v73 (after s2 (after s1 (after s0 V))) c36 b55).trans
    (congrArg (val_main_v73 (F := F)) (a2.trans (a1.trans a0)))

/-- No operation writes an argument. -/
theorem arg0_eq : after ops V (Proc.devRef .tc main_arg0) = V (Proc.devRef .tc main_arg0) := by fold_reads [ops]
theorem arg1_eq : after ops V (Proc.devRef .tc main_arg1) = V (Proc.devRef .tc main_arg1) := by fold_reads [ops]
theorem arg2_eq : after ops V (Proc.devRef .tc main_arg2) = V (Proc.devRef .tc main_arg2) := by fold_reads [ops]
theorem arg3_eq : after ops V (Proc.devRef .tc main_arg3) = V (Proc.devRef .tc main_arg3) := by fold_reads [ops]

/-- On every device, from any memory with zero counters: every weakly fair execution of the reference terminates with
    its result buffer at the last stage of the argument array, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = val_main_v73 (F := F) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v73).trans (result_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.RefRun

end
-- ==== Proof.RefStages.lean ====
/-
  The reference program, read one stage at a time at an index given by its four coordinates (batch, channel, row,
  column), and the whole of it identified with the two-pass falling rule `G`.

  Every elementwise operation reads its operands at the same index; a slice that keeps one channel reads that channel;
  a rotation spelt as two slices laid end to end reads the neighbouring row or column around the ring; a one-channel
  array spread over the twenty channels reads its one channel; a spread scalar reads the scalar. Chaining these reads
  through the operations of one pass gives the pass's four comparisons (`moves`), its two 0/1 planes and its blend;
  the second pass is the same chain started from the first pass's result.
-/
import proofs.«112188_j30296699306445_2_alg».proof.Proof.RefRead
import proofs.«112188_j30296699306445_2_alg».proof.Proof.Stencil

noncomputable section

namespace Cert.RefStages

open Cert.ReferenceIdeal Cert.ReferenceIdeal.Gen Cert.ReferenceIdeal.ReadP Idealize.ShloMosaic Idealize.ShloMosaic.ValueIdx
  Cert.Layout Cert.Stencil

/-! ## First pass: the reads of each layout operation -/

/-- The density plane is channel 1 of the batch. -/
theorem v0_at (x0 : (⟨S16x20x512x512, .f32⟩ : BufTy).Contents (Elt Ideal)) (B : Fin 16) (u : Fin 1) (h x : Row) :
    val_main_v0 (F := Ideal) x0 (ix4 B u h x) = x0 (ix4 B (1 : Fin 20) h x) :=
  sliceCh (n0 := 16) (n1 := 20) 1 (by decide) (x0) slices_S16x20x512x512_S16x1x512x512_0_1_0_0 B u h x

/-- The element plane is channel 0 of the batch. -/
theorem v1_at (x0 : (⟨S16x20x512x512, .f32⟩ : BufTy).Contents (Elt Ideal)) (B : Fin 16) (u : Fin 1) (h x : Row) :
    val_main_v1 (F := Ideal) x0 (ix4 B u h x) = x0 (ix4 B (0 : Fin 20) h x) :=
  sliceCh (n0 := 16) (n1 := 20) 0 (by decide) (x0) slices_S16x20x512x512_S16x1x512x512_0_0_0_0 B u h x

/-- The spread constants: the element id, the zeros of the three comparisons, the ones of the blend. -/
theorem v2_at (i : S16x1x512x512.Idx) : val_main_v2 (F := Ideal) i = three :=
  splat S16x1x512x512 0x40400000#32 bcast_S_S16x1x512x512 i

theorem v8_at (i : S16x1x512x512.Idx) : val_main_v8 (F := Ideal) i = zero :=
  splat S16x1x512x512 0x00000000#32 bcast_S_S16x1x512x512 i

theorem v12_at (i : S16x1x512x512.Idx) : val_main_v12 (F := Ideal) i = zero :=
  splat S16x1x512x512 0x00000000#32 bcast_S_S16x1x512x512 i

theorem v16_at (i : S16x1x512x512.Idx) : val_main_v16 (F := Ideal) i = zero :=
  splat S16x1x512x512 0x00000000#32 bcast_S_S16x1x512x512 i

theorem v24_at (i : S16x1x512x512.Idx) : val_main_v24 (F := Ideal) i = one :=
  splat S16x1x512x512 0x3F800000#32 bcast_S_S16x1x512x512 i

theorem v26_at (i : S16x1x512x512.Idx) : val_main_v26 (F := Ideal) i = one :=
  splat S16x1x512x512 0x3F800000#32 bcast_S_S16x1x512x512 i

/-- The density one column back. -/
theorem v4_at (x0 : (⟨S16x20x512x512, .f32⟩ : BufTy).Contents (Elt Ideal)) (B : Fin 16) (u : Fin 1) (h x : Row) :
    val_main_v4 (F := Ideal) x0 (ix4 B u h x) = val_main_v0 (F := Ideal) x0 (ix4 B u h (prev x)) :=
  rollW_fwd (n0 := 16) (n1 := 1) (val_main_v0 (F := Ideal) x0) slices_S16x1x512x512_S16x1x512x1_0_0_0_511 slices_S16x1x512x512_S16x1x512x511_0_0_0_0 concatenates_S16x1x512x1_S16x1x512x511_S16x1x512x512_d3 B u h x

/-- The density one row back. -/
theorem v5_at (x0 : (⟨S16x20x512x512, .f32⟩ : BufTy).Contents (Elt Ideal)) (B : Fin 16) (u : Fin 1) (h x : Row) :
    val_main_v5 (F := Ideal) x0 (ix4 B u h x) = val_main_v0 (F := Ideal) x0 (ix4 B u (prev h) x) :=
  rollH_fwd (n0 := 16) (n1 := 1) (val_main_v0 (F := Ideal) x0) slices_S16x1x512x512_S16x1x1x512_0_0_511_0 slices_S16x1x512x512_S16x1x511x512_0_0_0_0 concatenates_S16x1x1x512_S16x1x511x512_S16x1x512x512_d2 B u h x

/-- The density one row back, then one column back. -/
theorem v6_at (x0 : (⟨S16x20x512x512, .f32⟩ : BufTy).Contents (Elt Ideal)) (B : Fin 16) (u : Fin 1) (h x : Row) :
    val_main_v6 (F := Ideal) x0 (ix4 B u h x) = val_main_v5 (F := Ideal) x0 (ix4 B u h (prev x)) :=
  rollW_fwd (n0 := 16) (n1 := 1) (val_main_v5 (F := Ideal) x0) slices_S16x1x512x512_S16x1x512x1_0_0_0_511 slices_S16x1x512x512_S16x1x512x511_0_0_0_0 concatenates_S16x1x512x1_S16x1x512x511_S16x1x512x512_d3 B u h x

/-- The move-up bit read one row on. -/
theorem v19_at (x0 : (⟨S16x20x512x512, .f32⟩ : BufTy).Contents (Elt Ideal)) (B : Fin 16) (u : Fin 1) (h x : Row) :
    val_main_v19 (F := Ideal) x0 (ix4 B u h x) = val_main_v18 (F := Ideal) x0 (ix4 B u (next h) x) :=
  rollH_bwd (n0 := 16) (n1 := 1) (val_main_v18 (F := Ideal) x0) slices_S16x1x512x512_S16x1x511x512_0_0_1_0 slices_S16x1x512x512_S16x1x1x512_0_0_0_0 concatenates_S16x1x511x512_S16x1x1x512_S16x1x512x512_d2 B u h x

/-- Every channel one row back. -/
theorem v20_at (x0 : (⟨S16x20x512x512, .f32⟩ : BufTy).Contents (Elt Ideal)) (B : Fin 16) (c : Fin 20) (h x : Row) :
    val_main_v20 (F := Ideal) x0 (ix4 B c h x) = x0 (ix4 B c (prev h) x) :=
  rollH_fwd (n0 := 16) (n1 := 20) (x0) slices_S16x20x512x512_S16x20x1x512_0_0_511_0 slices_S16x20x512x512_S16x20x511x512_0_0_0_0 concatenates_S16x20x1x512_S16x20x511x512_S16x20x512x512_d2 B c h x

/-- Every channel one row on. -/
theorem v21_at (x0 : (⟨S16x20x512x512, .f32⟩ : BufTy).Contents (Elt Ideal)) (B : Fin 16) (c : Fin 20) (h x : Row) :
    val_main_v21 (F := Ideal) x0 (ix4 B c h x) = x0 (ix4 B c (next h) x) :=
  rollH_bwd (n0 := 16) (n1 := 20) (x0) slices_S16x20x512x512_S16x20x511x512_0_0_1_0 slices_S16x20x512x512_S16x20x1x512_0_0_0_0 concatenates_S16x20x511x512_S16x20x1x512_S16x20x512x512_d2 B c h x

/-- The keep weight spread over the channels. -/
theorem v29_at (x0 : (⟨S16x20x512x512, .f32⟩ : BufTy).Contents (Elt Ideal)) (B : Fin 16) (c : Fin 20) (h x : Row) :
    val_main_v29 (F := Ideal) x0 (ix4 B c h x) = val_main_v28 (F := Ideal) x0 (ix4 B (0 : Fin 1) h x) :=
  bcastInCh (n0 := 16) (n1 := 20) (val_main_v28 (F := Ideal) x0) bcast_S16x1x512x512_S16x20x512x512_0_1_2_3 B c h x

/-- The move-up weight spread over the channels. -/
theorem v31_at (x0 : (⟨S16x20x512x512, .f32⟩ : BufTy).Contents (Elt Ideal)) (B : Fin 16) (c : Fin 20) (h x : Row) :
    val_main_v31 (F := Ideal) x0 (ix4 B c h x) = val_main_v22 (F := Ideal) x0 (ix4 B (0 : Fin 1) h x) :=
  bcastInCh (n0 := 16) (n1 := 20) (val_main_v22 (F := Ideal) x0) bcast_S16x1x512x512_S16x20x512x512_0_1_2_3 B c h x

/-- The receive weight spread over the channels. -/
theorem v34_at (x0 : (⟨S16x20x512x512, .f32⟩ : BufTy).Contents (Elt Ideal)) (B : Fin 16) (c : Fin 20) (h x : Row) :
    val_main_v34 (F := Ideal) x0 (ix4 B c h x) = val_main_v23 (F := Ideal) x0 (ix4 B (0 : Fin 1) h x) :=
  bcastInCh (n0 := 16) (n1 := 20) (val_main_v23 (F := Ideal) x0) bcast_S16x1x512x512_S16x20x512x512_0_1_2_3 B c h x

/-! ## First pass: the stages -/

/-- The first pass's move-up bit: the four comparisons on the element and density planes, looking one column back. -/
theorem moves1 (x0 : (⟨S16x20x512x512, .f32⟩ : BufTy).Contents (Elt Ideal)) (B : Fin 16) (u : Fin 1) (h x : Row) :
    val_main_v18 (F := Ideal) x0 (ix4 B u h x) = moves (fun h x => x0 (ix4 B (0 : Fin 20) h x)) (fun h x => x0 (ix4 B (1 : Fin 20) h x)) prev h x := by
  simp only [val_main_v18_apply, val_main_v14_apply, val_main_v10_apply, val_main_v3_apply, val_main_v9_apply, val_main_v13_apply, val_main_v17_apply, val_main_v7_apply, val_main_v11_apply, val_main_v15_apply,
    v1_at, v2_at, v4_at, v5_at, v6_at, v0_at, v8_at, v12_at, v16_at]
  rfl

/-- The move-up bit as a weight. -/
theorem up1_at (x0 : (⟨S16x20x512x512, .f32⟩ : BufTy).Contents (Elt Ideal)) (B : Fin 16) (u : Fin 1) (h x : Row) :
    val_main_v22 (F := Ideal) x0 (ix4 B u h x) = up1 (fun h x => x0 (ix4 B (0 : Fin 20) h x)) (fun h x => x0 (ix4 B (1 : Fin 20) h x)) h x := by
  simp only [val_main_v22_apply, moves1]
  rfl

/-- The receive weight: the move-up weight of the row after. -/
theorem rc1_at (x0 : (⟨S16x20x512x512, .f32⟩ : BufTy).Contents (Elt Ideal)) (B : Fin 16) (u : Fin 1) (h x : Row) :
    val_main_v23 (F := Ideal) x0 (ix4 B u h x) = rc1 (fun h x => x0 (ix4 B (0 : Fin 20) h x)) (fun h x => x0 (ix4 B (1 : Fin 20) h x)) h x := by
  simp only [val_main_v23_apply, v19_at, moves1]
  rfl

/-- Every channel after the first pass: kept, or taken from the row before, or from the row after. -/
theorem mid_at (x0 : (⟨S16x20x512x512, .f32⟩ : BufTy).Contents (Elt Ideal)) (B : Fin 16) (c : Fin 20) (h x : Row) :
    val_main_v36 (F := Ideal) x0 (ix4 B c h x) = mid (fun h x => x0 (ix4 B (0 : Fin 20) h x)) (fun h x => x0 (ix4 B (1 : Fin 20) h x)) (fun h x => x0 (ix4 B c h x)) h x := by
  simp only [val_main_v36_apply, val_main_v33_apply, val_main_v30_apply, val_main_v32_apply, val_main_v35_apply, val_main_v28_apply, val_main_v25_apply, val_main_v27_apply,
    v29_at, v31_at, v34_at, v24_at, v26_at, v20_at, v21_at, up1_at, rc1_at]
  rfl

/-! ## Second pass: the reads of each layout operation -/

/-- The density plane of the second pass is channel 1 of the first pass's result. -/
theorem v37_at (x0 : (⟨S16x20x512x512, .f32⟩ : BufTy).Contents (Elt Ideal)) (B : Fin 16) (u : Fin 1) (h x : Row) :
    val_main_v37 (F := Ideal) x0 (ix4 B u h x) = val_main_v36 (F := Ideal) x0 (ix4 B (1 : Fin 20) h x) :=
  sliceCh (n0 := 16) (n1 := 20) 1 (by decide) (val_main_v36 (F := Ideal) x0) slices_S16x20x512x512_S16x1x512x512_0_1_0_0 B u h x

/-- The element plane of the second pass is channel 0 of the first pass's result. -/
theorem v38_at (x0 : (⟨S16x20x512x512, .f32⟩ : BufTy).Contents (Elt Ideal)) (B : Fin 16) (u : Fin 1) (h x : Row) :
    val_main_v38 (F := Ideal) x0 (ix4 B u h x) = val_main_v36 (F := Ideal) x0 (ix4 B (0 : Fin 20) h x) :=
  sliceCh (n0 := 16) (n1 := 20) 0 (by decide) (val_main_v36 (F := Ideal) x0) slices_S16x20x512x512_S16x1x512x512_0_0_0_0 B u h x

theorem v39_at (i : S16x1x512x512.Idx) : val_main_v39 (F := Ideal) i = three :=
  splat S16x1x512x512 0x40400000#32 bcast_S_S16x1x512x512 i

theorem v45_at (i : S16x1x512x512.Idx) : val_main_v45 (F := Ideal) i = zero :=
  splat S16x1x512x512 0x00000000#32 bcast_S_S16x1x512x512 i

theorem v49_at (i : S16x1x512x512.Idx) : val_main_v49 (F := Ideal) i = zero :=
  splat S16x1x512x512 0x00000000#32 bcast_S_S16x1x512x512 i

theorem v53_at (i : S16x1x512x512.Idx) : val_main_v53 (F := Ideal) i = zero :=
  splat S16x1x512x512 0x00000000#32 bcast_S_S16x1x512x512 i

theorem v61_at (i : S16x1x512x512.Idx) : val_main_v61 (F := Ideal) i = one :=
  splat S16x1x512x512 0x3F800000#32 bcast_S_S16x1x512x512 i

theorem v63_at (i : S16x1x512x512.Idx) : val_main_v63 (F := Ideal) i = one :=
  splat S16x1x512x512 0x3F800000#32 bcast_S_S16x1x512x512 i

/-- The density one column on. -/
theorem v41_at (x0 : (⟨S16x20x512x512, .f32⟩ : BufTy).Contents (Elt Ideal)) (B : Fin 16) (u : Fin 1) (h x : Row) :
    val_main_v41 (F := Ideal) x0 (ix4 B u h x) = val_main_v37 (F := Ideal) x0 (ix4 B u h (next x)) :=
  rollW_bwd (n0 := 16) (n1 := 1) (val_main_v37 (F := Ideal) x0) slices_S16x1x512x512_S16x1x512x511_0_0_0_1 slices_S16x1x512x512_S16x1x512x1_0_0_0_0 concatenates_S16x1x512x511_S16x1x512x1_S16x1x512x512_d3 B u h x

/-- The density one row back. -/
theorem v42_at (x0 : (⟨S16x20x512x512, .f32⟩ : BufTy).Contents (Elt Ideal)) (B : Fin 16) (u : Fin 1) (h x : Row) :
    val_main_v42 (F := Ideal) x0 (ix4 B u h x) = val_main_v37 (F := Ideal) x0 (ix4 B u (prev h) x) :=
  rollH_fwd (n0 := 16) (n1 := 1) (val_main_v37 (F := Ideal) x0) slices_S16x1x512x512_S16x1x1x512_0_0_511_0 slices_S16x1x512x512_S16x1x511x512_0_0_0_0 concatenates_S16x1x1x512_S16x1x511x512_S16x1x512x512_d2 B u h x

/-- The density one row back, then one column on. -/
theorem v43_at (x0 : (⟨S16x20x512x512, .f32⟩ : BufTy).Contents (Elt Ideal)) (B : Fin 16) (u : Fin 1) (h x : Row) :
    val_main_v43 (F := Ideal) x0 (ix4 B u h x) = val_main_v42 (F := Ideal) x0 (ix4 B u h (next x)) :=
  rollW_bwd (n0 := 16) (n1 := 1) (val_main_v42 (F := Ideal) x0) slices_S16x1x512x512_S16x1x512x511_0_0_0_1 slices_S16x1x512x512_S16x1x512x1_0_0_0_0 concatenates_S16x1x512x511_S16x1x512x1_S16x1x512x512_d3 B u h x

/-- The move-up bit read one row on. -/
theorem v56_at (x0 : (⟨S16x20x512x512, .f32⟩ : BufTy).Contents (Elt Ideal)) (B : Fin 16) (u : Fin 1) (h x : Row) :
    val_main_v56 (F := Ideal) x0 (ix4 B u h x) = val_main_v55 (F := Ideal) x0 (ix4 B u (next h) x) :=
  rollH_bwd (n0 := 16) (n1 := 1) (val_main_v55 (F := Ideal) x0) slices_S16x1x512x512_S16x1x511x512_0_0_1_0 slices_S16x1x512x512_S16x1x1x512_0_0_0_0 concatenates_S16x1x511x512_S16x1x1x512_S16x1x512x512_d2 B u h x

/-- Every channel of the first pass's result one row back. -/
theorem v57_at (x0 : (⟨S16x20x512x512, .f32⟩ : BufTy).Contents (Elt Ideal)) (B : Fin 16) (c : Fin 20) (h x : Row) :
    val_main_v57 (F := Ideal) x0 (ix4 B c h x) = val_main_v36 (F := Ideal) x0 (ix4 B c (prev h) x) :=
  rollH_fwd (n0 := 16) (n1 := 20) (val_main_v36 (F := Ideal) x0) slices_S16x20x512x512_S16x20x1x512_0_0_511_0 slices_S16x20x512x512_S16x20x511x512_0_0_0_0 concatenates_S16x20x1x512_S16x20x511x512_S16x20x512x512_d2 B c h x

/-- Every channel of the first pass's result one row on. -/
theorem v58_at (x0 : (⟨S16x20x512x512, .f32⟩ : BufTy).Contents (Elt Ideal)) (B : Fin 16) (c : Fin 20) (h x : Row) :
    val_main_v58 (F := Ideal) x0 (ix4 B c h x) = val_main_v36 (F := Ideal) x0 (ix4 B c (next h) x) :=
  rollH_bwd (n0 := 16) (n1 := 20) (val_main_v36 (F := Ideal) x0) slices_S16x20x512x512_S16x20x511x512_0_0_1_0 slices_S16x20x512x512_S16x20x1x512_0_0_0_0 concatenates_S16x20x511x512_S16x20x1x512_S16x20x512x512_d2 B c h x

/-- The keep weight spread over the channels. -/
theorem v66_at (x0 : (⟨S16x20x512x512, .f32⟩ : BufTy).Contents (Elt Ideal)) (B : Fin 16) (c : Fin 20) (h x : Row) :
    val_main_v66 (F := Ideal) x0 (ix4 B c h x) = val_main_v65 (F := Ideal) x0 (ix4 B (0 : Fin 1) h x) :=
  bcastInCh (n0 := 16) (n1 := 20) (val_main_v65 (F := Ideal) x0) bcast_S16x1x512x512_S16x20x512x512_0_1_2_3 B c h x

/-- The move-up weight spread over the channels. -/
theorem v68_at (x0 : (⟨S16x20x512x512, .f32⟩ : BufTy).Contents (Elt Ideal)) (B : Fin 16) (c : Fin 20) (h x : Row) :
    val_main_v68 (F := Ideal) x0 (ix4 B c h x) = val_main_v59 (F := Ideal) x0 (ix4 B (0 : Fin 1) h x) :=
  bcastInCh (n0 := 16) (n1 := 20) (val_main_v59 (F := Ideal) x0) bcast_S16x1x512x512_S16x20x512x512_0_1_2_3 B c h x

/-- The receive weight spread over the channels. -/
theorem v71_at (x0 : (⟨S16x20x512x512, .f32⟩ : BufTy).Contents (Elt Ideal)) (B : Fin 16) (c : Fin 20) (h x : Row) :
    val_main_v71 (F := Ideal) x0 (ix4 B c h x) = val_main_v60 (F := Ideal) x0 (ix4 B (0 : Fin 1) h x) :=
  bcastInCh (n0 := 16) (n1 := 20) (val_main_v60 (F := Ideal) x0) bcast_S16x1x512x512_S16x20x512x512_0_1_2_3 B c h x

/-! ## Second pass: the stages -/

/-- The second pass's move-up bit: the same four comparisons on the first pass's element and density planes, looking
    one column on. -/
theorem moves2 (x0 : (⟨S16x20x512x512, .f32⟩ : BufTy).Contents (Elt Ideal)) (B : Fin 16) (u : Fin 1) (h x : Row) :
    val_main_v55 (F := Ideal) x0 (ix4 B u h x) = moves (mid (fun h x => x0 (ix4 B (0 : Fin 20) h x)) (fun h x => x0 (ix4 B (1 : Fin 20) h x)) (fun h x => x0 (ix4 B (0 : Fin 20) h x)))
      (mid (fun h x => x0 (ix4 B (0 : Fin 20) h x)) (fun h x => x0 (ix4 B (1 : Fin 20) h x)) (fun h x => x0 (ix4 B (1 : Fin 20) h x))) next h x := by
  simp only [val_main_v55_apply, val_main_v51_apply, val_main_v47_apply, val_main_v40_apply, val_main_v46_apply, val_main_v50_apply, val_main_v54_apply, val_main_v44_apply, val_main_v48_apply, val_main_v52_apply,
    v38_at, v39_at, v41_at, v42_at, v43_at, v37_at, v45_at, v49_at, v53_at, mid_at]
  rfl

/-- The move-up bit as a weight. -/
theorem up2_at (x0 : (⟨S16x20x512x512, .f32⟩ : BufTy).Contents (Elt Ideal)) (B : Fin 16) (u : Fin 1) (h x : Row) :
    val_main_v59 (F := Ideal) x0 (ix4 B u h x) = up2 (fun h x => x0 (ix4 B (0 : Fin 20) h x)) (fun h x => x0 (ix4 B (1 : Fin 20) h x)) h x := by
  simp only [val_main_v59_apply, moves2]
  rfl

/-- The receive weight: the move-up weight of the row after. -/
theorem rc2_at (x0 : (⟨S16x20x512x512, .f32⟩ : BufTy).Contents (Elt Ideal)) (B : Fin 16) (u : Fin 1) (h x : Row) :
    val_main_v60 (F := Ideal) x0 (ix4 B u h x) = rc2 (fun h x => x0 (ix4 B (0 : Fin 20) h x)) (fun h x => x0 (ix4 B (1 : Fin 20) h x)) h x := by
  simp only [val_main_v60_apply, v56_at, moves2]
  rfl

/-- Every channel after the second pass. -/
theorem out_at (x0 : (⟨S16x20x512x512, .f32⟩ : BufTy).Contents (Elt Ideal)) (B : Fin 16) (c : Fin 20) (h x : Row) :
    val_main_v73 (F := Ideal) x0 (ix4 B c h x) = out (fun h x => x0 (ix4 B (0 : Fin 20) h x)) (fun h x => x0 (ix4 B (1 : Fin 20) h x)) (fun h x => x0 (ix4 B c h x)) h x := by
  simp only [val_main_v73_apply, val_main_v70_apply, val_main_v67_apply, val_main_v69_apply, val_main_v72_apply, val_main_v65_apply, val_main_v62_apply, val_main_v64_apply,
    v66_at, v68_at, v71_at, v61_at, v63_at, v57_at, v58_at, up2_at, rc2_at, mid_at]
  rfl

/-- The reference program computes the two-pass falling rule. -/
theorem ref_is_G (x0 : (⟨S16x20x512x512, .f32⟩ : BufTy).Contents (Elt Ideal)) :
    val_main_v73 (F := Ideal) x0 = G x0 := by
  funext i
  obtain ⟨B, c, h, x, rfl⟩ : ∃ B c h x, i = ix4 B c h x := ⟨i 0, i 1, i 2, i 3, eq_ix4 i⟩
  rw [out_at, G_apply]

end Cert.RefStages

end
-- ==== Proof.lean ====
/-
  The claim: a two-pass falling rule on a [16, 20, 512, 512] world, computed block by block, equals its whole-array
  form on the extended reals.

  Both programs compute, for every batch, the planes of the cells that move up and of the cells that receive from
  below — from the batch's element and density channels, by comparisons of a cell with its neighbours one step round
  the rows and columns — and blend every channel with its rows before and after by those planes; twice, the second
  pass looking the other way along the columns and reading the first pass's element and density. The reference does it
  on whole arrays, its rotations spelt as two slices laid end to end. The kernel walks the grid of 16 batches by 10
  channel pairs: at a batch's first pair it computes the six coefficient planes from that block (which IS the element
  and density channels) and keeps them in scratch buffers; at every pair it blends its block with the planes kept.
  So the planes a block is blended with are those of its batch's first block (an induction over the grid points), a
  block's rotation along the rows is the whole array's (a block holds whole rows and columns), and index by index both
  results are one function `Stencil.G` of the argument array: the same operations in the same order, so no law of
  arithmetic is needed and the finiteness of the inputs is never used. The ideal pass rewrote nothing.
-/
import proofs.«112188_j30296699306445_2_alg».proof.Defs
import proofs.«112188_j30296699306445_2_alg».proof.Proof.Gen.Kernel
import proofs.«112188_j30296699306445_2_alg».proof.Proof.Gen.Kernel.Skeleton
import proofs.«112188_j30296699306445_2_alg».proof.Proof.Gen.Kernel.Launch
import proofs.«112188_j30296699306445_2_alg».proof.Proof.Gen.Kernel.Points
import proofs.«112188_j30296699306445_2_alg».proof.Proof.Gen.Kernel.Frame
import proofs.«112188_j30296699306445_2_alg».proof.Proof.Gen.KernelIdeal
import proofs.«112188_j30296699306445_2_alg».proof.Proof.Gen.KernelIdeal.Skeleton
import proofs.«112188_j30296699306445_2_alg».proof.Proof.Gen.KernelIdeal.Launch
import proofs.«112188_j30296699306445_2_alg».proof.Proof.Gen.KernelIdeal.Points
import proofs.«112188_j30296699306445_2_alg».proof.Proof.Gen.KernelIdeal.Frame
import proofs.«112188_j30296699306445_2_alg».proof.Proof.Gen.ReferenceIdeal
import proofs.«112188_j30296699306445_2_alg».proof.Proof.Gen.Pre_finite_inputs
import proofs.«112188_j30296699306445_2_alg».proof.Proof.Gen.KernelIdeal.Value
import proofs.«112188_j30296699306445_2_alg».proof.Proof.KernelValue
import proofs.«112188_j30296699306445_2_alg».proof.Proof.RefRun
import proofs.«112188_j30296699306445_2_alg».proof.Proof.RefStages
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.RefRun.run (F := Ideal) m ρ)

/-- Nothing was rewritten on the way to the extended reals. -/
theorem preserves : Cert.preserves_Kernel_KernelIdeal := trivial

/-- From arguments that agree, the kernel's result array and the reference's are both the specification of the world. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.RefRun.run (F := Ideal) m' ρ')
  rw [Cert.RefStages.ref_is_G, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
